-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x65536x7 : Shape := ⟨3, ![128, 65536, 7]⟩
abbrev S128x65536x5 : Shape := ⟨3, ![128, 65536, 5]⟩
abbrev S_ : Shape := ⟨0, ![]⟩

class Facts : Prop where
  bcast_S_S128x65536x7 : S_.BroadcastsInDim S128x65536x7 (![] : Fin 0 → Fin S128x65536x7.rank)
  reducesTo_S128x65536x7_S_d0_1_2 : S128x65536x7.ReducesTo [0, 1, 2] S_
  h_S_ : 0 < S_.numel
  bcast_S_S128x65536x5 : S_.BroadcastsInDim S128x65536x5 (![] : Fin 0 → Fin S128x65536x5.rank)
  reducesTo_S128x65536x5_S_d0_1_2 : S128x65536x5.ReducesTo [0, 1, 2] S_

variable [Facts]

def fn {F : FTy → Type} [FloatOps F] (main_arg0 : FVec F S128x65536x7 .f32) (main_arg1 : FVec F S128x65536x5 .f32) : IVec S_ 1 :=
  let main_v0 : FVec F S128x65536x7 .f32 := Host.absf main_arg0
  let main_cst : FVec F S_ .f32 := constant S_ .f32 0x7F800000#32
  let main_v1 : FVec F S128x65536x7 .f32 := broadcastInDim S128x65536x7 ![] bcast_S_S128x65536x7 main_cst
  let main_v2 : IVec S128x65536x7 1 := cmpf .olt main_v0 main_v1
  let main_c : IVec S_ 1 := constantI S_ 1 1#1
  let main_v3 : IVec S_ 1 := (fun x v => Host.reduce IntOp.andi x v reducesTo_S128x65536x7_S_d0_1_2 h_S_) main_v2 main_c
  let main_v4 : FVec F S128x65536x5 .f32 := Host.absf main_arg1
  let main_cst_0 : FVec F S_ .f32 := constant S_ .f32 0x7F800000#32
  let main_v5 : FVec F S128x65536x5 .f32 := broadcastInDim S128x65536x5 ![] bcast_S_S128x65536x5 main_cst_0
  let main_v6 : IVec S128x65536x5 1 := cmpf .olt main_v4 main_v5
  let main_c_1 : IVec S_ 1 := constantI S_ 1 1#1
  let main_v7 : IVec S_ 1 := (fun x v => Host.reduce IntOp.andi x v reducesTo_S128x65536x5_S_d0_1_2 h_S_) main_v6 main_c_1
  let main_v8 : IVec S_ 1 := andi main_v3 main_v7
  main_v8
-- ==== Kernel.lean ====
abbrev S128x65536x7 : Shape := ⟨3, ![128, 65536, 7]⟩
abbrev S128x65536x5 : Shape := ⟨3, ![128, 65536, 5]⟩
abbrev S16x8x128 : Shape := ⟨3, ![16, 8, 128]⟩
abbrev S8x16384x7 : Shape := ⟨3, ![8, 16384, 7]⟩
abbrev S8x16384x5 : Shape := ⟨3, ![8, 16384, 5]⟩
abbrev S1x8x128 : Shape := ⟨3, ![1, 8, 128]⟩
abbrev S8x16384x1 : Shape := ⟨3, ![8, 16384, 1]⟩
abbrev S8x16384 : Shape := ⟨2, ![8, 16384]⟩
abbrev S1x8x16384 : Shape := ⟨3, ![1, 8, 16384]⟩
abbrev S1 : Shape := ⟨1, ![1]⟩
abbrev S1x1x1 : Shape := ⟨3, ![1, 1, 1]⟩
abbrev S8x16384x3 : Shape := ⟨3, ![8, 16384, 3]⟩
abbrev S1x8x16384x3 : Shape := ⟨4, ![1, 8, 16384, 3]⟩
abbrev S1x1x1x1 : Shape := ⟨4, ![1, 1, 1, 1]⟩
abbrev S8 : Shape := ⟨1, ![8]⟩
abbrev S1x1x8 : Shape := ⟨3, ![1, 1, 8]⟩
abbrev S_ : Shape := ⟨0, ![]⟩
abbrev S8x128 : Shape := ⟨2, ![8, 128]⟩
abbrev S1x1 : Shape := ⟨2, ![1, 1]⟩

abbrev nBuf : Space → Nat
  | .hbm => 36
  | .vmem => 6
  | .smem => 0
  | _ => 0

abbrev bufTy : (tb : Table) → Fin (tcTables nBuf tb) → BufTy
  | .hbm, ⟨0, _⟩ => ⟨S128x65536x7, .f32⟩
  | .hbm, ⟨1, _⟩ => ⟨S128x65536x5, .f32⟩
  | .hbm, ⟨2, _⟩ => ⟨S16x8x128, .f32⟩
  | .hbm, ⟨3, _⟩ => ⟨S_, .f32⟩
  | .hbm, ⟨4, _⟩ => ⟨S8x128, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S8x16384x7, .f32⟩
  | .local _ .vmem, ⟨1, _⟩ => ⟨S8x16384x7, .f32⟩
  | .local _ .vmem, ⟨2, _⟩ => ⟨S8x16384x5, .f32⟩
  | .local _ .vmem, ⟨3, _⟩ => ⟨S8x16384x5, .f32⟩
  | .local _ .vmem, ⟨4, _⟩ => ⟨S1x8x128, .f32⟩
  | .local _ .vmem, ⟨5, _⟩ => ⟨S1x8x128, .f32⟩
  | _, _ => ⟨S128x65536x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_cst_7 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16384x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16384x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S8x16384x7_S8x16384x7_0_0_0 : ∀ a, (![0, 0, 0] : Fin 3 → Nat) a + S8x16384x7.size a ≤ S8x16384x7.size a
  h_S8x16384x7 : 0 < S8x16384x7.numel
  inb_S8x16384x5_S8x16384x5_0_0_0 : ∀ a, (![0, 0, 0] : Fin 3 → Nat) a + S8x16384x5.size a ≤ S8x16384x5.size a
  h_S8x16384x5 : 0 < S8x16384x5.numel
  slices_S8x16384x7_o0_0_0_S8x16384x1 : S8x16384x7.Slices ![0, 0, 0] S8x16384x1
  shapeCasts_S8x16384x1_S8x16384 : S8x16384x1.ShapeCasts S8x16384
  slices_S8x16384x5_o0_0_0_S8x16384x1 : S8x16384x5.Slices ![0, 0, 0] S8x16384x1
  shapeCasts_S8x16384_S1x8x16384 : S8x16384.ShapeCasts S1x8x16384
  reduces_S1x8x16384_S1 : S1x8x16384.Reduces [1, 2] S1
  shapeCasts_S1_S1x1x1 : S1.ShapeCasts S1x1x1
  inpos_S1x1x1_p0_0_0 : ∀ a, (![0, 0, 0] : Fin 3 → Nat) a < S1x1x1.size a
  slices_S8x16384x5_o0_0_4_S8x16384x1 : S8x16384x5.Slices ![0, 0, 4] S8x16384x1
  iota_S8x16384x3_d2_w32 : S8x16384x3.Iotas .tc 32 [2]
  shapeCasts_S8x16384_S8x16384x1 : S8x16384.ShapeCasts S8x16384x1
  broadcasts_S8x16384x1_S8x16384x3 : S8x16384x1.Broadcasts S8x16384x3
  natLt_1_32 : 1 < 32
  slices_S8x16384x7_o0_0_4_S8x16384x3 : S8x16384x7.Slices ![0, 0, 4] S8x16384x3
  shapeCasts_S8x16384x3_S1x8x16384x3 : S8x16384x3.ShapeCasts S1x8x16384x3
  reduces_S1x8x16384x3_S1 : S1x8x16384x3.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  slices_S8x16384x7_o0_0_1_S8x16384x1 : S8x16384x7.Slices ![0, 0, 1] S8x16384x1
  slices_S8x16384x5_o0_0_1_S8x16384x1 : S8x16384x5.Slices ![0, 0, 1] S8x16384x1
  slices_S8x16384x7_o0_0_2_S8x16384x1 : S8x16384x7.Slices ![0, 0, 2] S8x16384x1
  slices_S8x16384x5_o0_0_2_S8x16384x1 : S8x16384x5.Slices ![0, 0, 2] S8x16384x1
  slices_S8x16384x7_o0_0_3_S8x16384x1 : S8x16384x7.Slices ![0, 0, 3] S8x16384x1
  slices_S8x16384x5_o0_0_3_S8x16384x1 : S8x16384x5.Slices ![0, 0, 3] S8x16384x1
  concatenates_S1_S1_S1_S1_S1_S1_S1_S1_S8_d0 : Shape.Concatenates [S1, S1, S1, S1, S1, S1, S1, S1] S8 0
  inb_S1x8x128_S1x1x8_0_0_0 : ∀ a, (![0, 0, 0] : Fin 3 → Nat) a + S1x1x8.size a ≤ S1x8x128.size a
  h_S1x1x8 : 0 < S1x1x8.numel
  shapeCasts_S1x1x8_S8 : S1x1x8.ShapeCasts S8
  shapeCasts_S8_S1x1x8 : S8.ShapeCasts S1x1x8
  reducesTo_S16x8x128_S8x128_d0 : S16x8x128.ReducesTo [0] S8x128
  h_S_ : 0 < S_.numel
  slices_S8x128_S1x1_0_0 : S8x128.Slices ![0, 0] S1x1
  shapeCasts_S1x1_S_ : S1x1.ShapeCasts S_
  slices_S8x128_S1x1_0_1 : S8x128.Slices ![0, 1] S1x1
  slices_S8x128_S1x1_0_2 : S8x128.Slices ![0, 2] S1x1
  slices_S8x128_S1x1_0_3 : S8x128.Slices ![0, 3] S1x1
  slices_S8x128_S1x1_0_4 : S8x128.Slices ![0, 4] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16384x7.size a ≤ S128x65536x7.size a
  hwx0_0 : ∀ i : grid0.Coords, EltTy.bits .f32 = 32 ∨ (Rect.block (s := S128x65536x7) S8x16384x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16384x5.size a ≤ S128x65536x5.size a
  hwx0_1 : ∀ i : grid0.Coords, EltTy.bits .f32 = 32 ∨ (Rect.block (s := S128x65536x5) S8x16384x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

abbrev win0_0 : Pipeline.Window sig grid0 :=
  Pipeline.Window.ofSpec (Memref.whole main_arg0) S8x16384x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x16384x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x65536x7 : Shape := ⟨3, ![128, 65536, 7]⟩
abbrev S128x65536x5 : Shape := ⟨3, ![128, 65536, 5]⟩
abbrev S128x65536x1 : Shape := ⟨3, ![128, 65536, 1]⟩
abbrev S128x65536 : Shape := ⟨2, ![128, 65536]⟩
abbrev S_ : Shape := ⟨0, ![]⟩
abbrev S1x1x3 : Shape := ⟨3, ![1, 1, 3]⟩
abbrev S128x65536x3 : Shape := ⟨3, ![128, 65536, 3]⟩

abbrev nBuf : Space → Nat
  | .hbm => 106
  | .vmem => 0
  | .smem => 0
  | _ => 0

abbrev bufTy : (tb : Table) → Fin (tcTables nBuf tb) → BufTy
  | .hbm, ⟨0, _⟩ => ⟨S128x65536x7, .f32⟩
  | .hbm, ⟨1, _⟩ => ⟨S128x65536x5, .f32⟩
  | .hbm, ⟨2, _⟩ => ⟨S128x65536x1, .f32⟩
  | .hbm, ⟨3, _⟩ => ⟨S128x65536, .f32⟩
  | .hbm, ⟨4, _⟩ => ⟨S128x65536x1, .f32⟩
  | .hbm, ⟨5, _⟩ => ⟨S128x65536, .f32⟩
  | .hbm, ⟨6, _⟩ => ⟨S128x65536, .f32⟩
  | .hbm, ⟨7, _⟩ => ⟨S_, .f32⟩
  | .hbm, ⟨8, _⟩ => ⟨S_, .f32⟩
  | .hbm, ⟨9, _⟩ => ⟨S128x65536, .f32⟩
  | .hbm, ⟨10, _⟩ => ⟨S128x65536, .f32⟩
  | .hbm, ⟨11, _⟩ => ⟨S128x65536, .f32⟩
  | .hbm, ⟨12, _⟩ => ⟨S_, .f32⟩
  | .hbm, ⟨13, _⟩ => ⟨S128x65536, .f32⟩
  | .hbm, ⟨14, _⟩ => ⟨S128x65536, .f32⟩
  | .hbm, ⟨15, _⟩ => ⟨S128x65536, .f32⟩
  | .hbm, ⟨16, _⟩ => ⟨S128x65536, .f32⟩
  | .hbm, ⟨17, _⟩ => ⟨S_, .f32⟩
  | .hbm, ⟨18, _⟩ => ⟨S_, .f32⟩
  | .hbm, ⟨19, _⟩ => ⟨S128x65536, .f32⟩
  | .hbm, ⟨20, _⟩ => ⟨S128x65536, .f32⟩
  | .hbm, ⟨21, _⟩ => ⟨S128x65536, .f32⟩
  | .hbm, ⟨22, _⟩ => ⟨S128x65536, .f32⟩
  | .hbm, ⟨23, _⟩ => ⟨S128x65536, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S128x65536x1, .f32⟩
  | .hbm, ⟨29, _⟩ => ⟨S128x65536, .f32⟩
  | .hbm, ⟨30, _⟩ => ⟨S128x65536, .i32⟩
  | .hbm, ⟨31, _⟩ => ⟨S128x65536x1, .i32⟩
  | .hbm, ⟨32, _⟩ => ⟨S1x1x3, .i32⟩
  | .hbm, ⟨33, _⟩ => ⟨S128x65536x3, .i32⟩
  | .hbm, ⟨34, _⟩ => ⟨S128x65536x3, .i32⟩
  | .hbm, ⟨35, _⟩ => ⟨S128x65536x3, .i1⟩
  | .hbm, ⟨36, _⟩ => ⟨S128x65536x3, .f32⟩
  | .hbm, ⟨37, _⟩ => ⟨S128x65536x1, .f32⟩
  | .hbm, ⟨38, _⟩ => ⟨S128x65536x3, .f32⟩
  | .hbm, ⟨39, _⟩ => ⟨S128x65536x3, .f32⟩
  | .hbm, ⟨40, _⟩ => ⟨S128x65536x3, .f32⟩
  | .hbm, ⟨41, _⟩ => ⟨S128x65536x3, .f32⟩
  | .hbm, ⟨42, _⟩ => ⟨S_, .f32⟩
  | .hbm, ⟨43, _⟩ => ⟨S_, .f32⟩
  | .hbm, ⟨44, _⟩ => ⟨S128x65536x3, .f32⟩
  | .hbm, ⟨45, _⟩ => ⟨S128x65536x3, .f32⟩
  | .hbm, ⟨46, _⟩ => ⟨S128x65536x3, .f32⟩
  | .hbm, ⟨47, _⟩ => ⟨S_, .f32⟩
  | .hbm, ⟨48, _⟩ => ⟨S128x65536x3, .f32⟩
  | .hbm, ⟨49, _⟩ => ⟨S128x65536x3, .f32⟩
  | .hbm, ⟨50, _⟩ => ⟨S128x65536x3, .f32⟩
  | .hbm, ⟨51, _⟩ => ⟨S128x65536x3, .f32⟩
  | .hbm, ⟨52, _⟩ => ⟨S_, .f32⟩
  | .hbm, ⟨53, _⟩ => ⟨S_, .f32⟩
  | .hbm, ⟨54, _⟩ => ⟨S128x65536x3, .f32⟩
  | .hbm, ⟨55, _⟩ => ⟨S128x65536x3, .f32⟩
  | .hbm, ⟨56, _⟩ => ⟨S128x65536x3, .f32⟩
  | .hbm, ⟨57, _⟩ => ⟨S128x65536x3, .f32⟩
  | .hbm, ⟨58, _⟩ => ⟨S128x65536x3, .f32⟩
  | .hbm, ⟨59, _⟩ => ⟨S_, .f32⟩
  | .hbm, ⟨60, _⟩ => ⟨S_, .f32⟩
  | .hbm, ⟨61, _⟩ => ⟨S128x65536x1, .f32⟩
  | .hbm, ⟨62, _⟩ => ⟨S128x65536, .f32⟩
  | .hbm, ⟨63, _⟩ => ⟨S128x65536x1, .f32⟩
  | .hbm, ⟨64, _⟩ => ⟨S128x65536, .f32⟩
  | .hbm, ⟨65, _⟩ => ⟨S128x65536, .f32⟩
  | .hbm, ⟨66, _⟩ => ⟨S128x65536, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S128x65536x1, .f32⟩
  | .hbm, ⟨72, _⟩ => ⟨S128x65536, .f32⟩
  | .hbm, ⟨73, _⟩ => ⟨S128x65536x1, .f32⟩
  | .hbm, ⟨74, _⟩ => ⟨S128x65536, .f32⟩
  | .hbm, ⟨75, _⟩ => ⟨S128x65536, .f32⟩
  | .hbm, ⟨76, _⟩ => ⟨S128x65536, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S128x65536x1, .f32⟩
  | .hbm, ⟨82, _⟩ => ⟨S128x65536, .f32⟩
  | .hbm, ⟨83, _⟩ => ⟨S128x65536, .f32⟩
  | .hbm, ⟨84, _⟩ => ⟨S128x65536x1, .f32⟩
  | .hbm, ⟨85, _⟩ => ⟨S128x65536, .f32⟩
  | .hbm, ⟨86, _⟩ => ⟨S128x65536, .f32⟩
  | .hbm, ⟨87, _⟩ => ⟨S128x65536, .f32⟩
  | .hbm, ⟨88, _⟩ => ⟨S128x65536, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S128x65536x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_call1_v0 : Ref sig .tc := ⟨.hbm, 18, rfl⟩
abbrev main_call1_v1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_call3_v0 : Ref sig .tc := ⟨.hbm, 43, rfl⟩
abbrev main_call3_v1 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_call4_v0 : Ref sig .tc := ⟨.hbm, 53, rfl⟩
abbrev main_call4_v1 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_cst_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_10 : Ref sig .tc := ⟨.hbm, 77, rfl⟩
abbrev main_v51 : Ref sig .tc := ⟨.hbm, 78, rfl⟩
abbrev main_cst_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_v63 : Ref sig .tc := ⟨.hbm, 93, rfl⟩
abbrev main_cst_14 : Ref sig .tc := ⟨.hbm, 94, rfl⟩
abbrev main_v64 : Ref sig .tc := ⟨.hbm, 95, rfl⟩
abbrev main_v65 : Ref sig .tc := ⟨.hbm, 96, rfl⟩
abbrev main_cst_15 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_cst_17 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]

class Facts₀ : Prop where
  slices_S128x65536x7_S128x65536x1_0_0_0 : S128x65536x7.Slices ![0, 0, 0] S128x65536x1
  shapeCasts_S128x65536x1_S128x65536 : S128x65536x1.ShapeCasts S128x65536
  slices_S128x65536x5_S128x65536x1_0_0_0 : S128x65536x5.Slices ![0, 0, 0] S128x65536x1
  bcast_S_S128x65536 : S_.BroadcastsInDim S128x65536 (![] : Fin 0 → Fin S128x65536.rank)
  reducesTo_S128x65536_S_d0_1 : S128x65536.ReducesTo [0, 1] S_
  h_S_ : 0 < S_.numel
  slices_S128x65536x5_S128x65536x1_0_0_4 : S128x65536x5.Slices ![0, 0, 4] S128x65536x1
  bcast_S128x65536_S128x65536x1_0_1 : S128x65536.BroadcastsInDim S128x65536x1 (![0, 1] : Fin 2 → Fin S128x65536x1.rank)
  bcast_S128x65536x1_S128x65536x3_0_1_2 : S128x65536x1.BroadcastsInDim S128x65536x3 (![0, 1, 2] : Fin 3 → Fin S128x65536x3.rank)
  bcast_S1x1x3_S128x65536x3_0_1_2 : S1x1x3.BroadcastsInDim S128x65536x3 (![0, 1, 2] : Fin 3 → Fin S128x65536x3.rank)
  slices_S128x65536x7_S128x65536x3_0_0_4 : S128x65536x7.Slices ![0, 0, 4] S128x65536x3
  bcast_S_S128x65536x3 : S_.BroadcastsInDim S128x65536x3 (![] : Fin 0 → Fin S128x65536x3.rank)
  reducesTo_S128x65536x3_S_d0_1_2 : S128x65536x3.ReducesTo [0, 1, 2] S_
  slices_S128x65536x7_S128x65536x1_0_0_1 : S128x65536x7.Slices ![0, 0, 1] S128x65536x1
  slices_S128x65536x5_S128x65536x1_0_0_1 : S128x65536x5.Slices ![0, 0, 1] S128x65536x1
  slices_S128x65536x7_S128x65536x1_0_0_2 : S128x65536x7.Slices ![0, 0, 2] S128x65536x1
  slices_S128x65536x5_S128x65536x1_0_0_2 : S128x65536x5.Slices ![0, 0, 2] S128x65536x1
  slices_S128x65536x7_S128x65536x1_0_0_3 : S128x65536x7.Slices ![0, 0, 3] S128x65536x1
  slices_S128x65536x5_S128x65536x1_0_0_3 : S128x65536x5.Slices ![0, 0, 3] S128x65536x1

variable [Facts₀]

class Facts : Prop extends Facts₀ where

variable [Facts]
-- ==== Proof.Accum.lean ====
/-
  The accumulator, point by point.

  The output block of group b (grid points 4b, 4b+1, 4b+2, 4b+3) is one [1, 8, 128] staging buffer kept across the
  four points. At the group's first point the body fills it with zeros; at every point it then adds, into lanes 0..7 of
  row 0, the block's five partial sums followed by three zeros. So after point 4b + j lane k holds
  0 + (the k-th addend of point 4b) + ... + (the k-th addend of point 4b + j), and the block written back after the
  group's last point holds the sum over the group's four blocks.
-/
import proofs.«106053_j86354612453429_1_alg».proof.Proof.Gen.KernelIdeal.Frame
import Idealize.ShloMosaic.Lib.Pipeline.Value
import Idealize.ShloMosaic.Lib.Tactic
import Idealize.ShloMosaic.PureOps.Ideal.Laws
import Idealize.ShloMosaic.Lib.ValueIdx

set_option maxRecDepth 16384

noncomputable section

open scoped BigOperators

namespace Cert.KernelIdeal.Acc

open Idealize.ShloMosaic Idealize.ShloMosaic.TcCoe Idealize.ShloMosaic.Tactic Idealize.SL.Sem Cert.KernelIdeal Cert.KernelIdeal.Gen
open Idealize.ShloMosaic.Pipeline (Dat)

variable {F : FTy → Type} [FloatOps F]

theorem hz3 : (![0, 0, 0] : Fin 3 → Nat) = fun _ => 0 := funext fun a => by fin_cases a <;> rfl

/-- The rectangle of the eight accumulator lanes inside the [1, 8, 128] block. -/
abbrev R8 : Rect S1x8x128 := Rect.unit ![0, 0, 0] ![1, 1, 8] inb_S1x8x128_S1x1x8_0_0_0

/-- What one grid point makes of the eight lanes: the block's five partial sums and three zeros added to them. -/
def step (x0 : Vec F S8x16384x7 .f32) (x1 : Vec F S8x16384x5 .f32) (acc : Vec F S1x1x8 .f32) : FVec F S1x1x8 .f32 :=
  k0_pay1 (k0_pay4 x0 x1) (k0_pay8 (k0_pay5 x1) (k0_pay6 x0) (k0_pay7 x0) (Scalar.ofBits .f32 0xC2C80000#32))
    (k0_pay9 x0 x1) (k0_pay10 x0 x1) (k0_pay11 x0 x1) (Scalar.ofBits .f32 0x00000000#32) (Scalar.ofBits .f32 0x00000000#32) acc

theorem outB_lane (c : Dev nD) (i : grid0.Coords) (arg2 : Memref sig .tc .vmem S8x16384x7 .f32) (harg2 : arg2.IsWhole) (arg3 : Memref sig .tc .vmem S8x16384x5 .f32) (harg3 : arg3.IsWhole) (arg4 : Memref sig .tc .vmem S1x8x128 .f32) (harg4 : arg4.IsWhole) (hc0 : ¬cond0_0 i)
    (x0 : Vec F S8x16384x7 .f32) (x1 : Vec F S8x16384x5 .f32) (xo2 : Vec F S1x8x128 .f32) (x : S1x1x8.Idx) :
    out0_B_2 c i arg2 harg2 arg3 harg3 arg4 harg4 hc0 x0 x1 xo2 (R8.emb x) = step x0 x1 (View.ld xo2 R8) x := by
  unfold out0_B_2
  unfold kernelRun0_B
  dsimp only
  sl_unfold_words
  rw [View.read_writes_cons_emb]
  simp only [View.readAt_eq_ld, harg2.read_unread, harg3.read_unread, harg4.read_unread,
    View.ld_unit_zero (S := S8x16384x7) hz3, View.ld_unit_zero (S := S8x16384x5) hz3]
  rfl

theorem outA_lane (c : Dev nD) (i : grid0.Coords) (arg2 : Memref sig .tc .vmem S8x16384x7 .f32) (harg2 : arg2.IsWhole) (arg3 : Memref sig .tc .vmem S8x16384x5 .f32) (harg3 : arg3.IsWhole) (arg4 : Memref sig .tc .vmem S1x8x128 .f32) (harg4 : arg4.IsWhole) (hc0 : cond0_0 i)
    (x0 : Vec F S8x16384x7 .f32) (x1 : Vec F S8x16384x5 .f32) (x : S1x1x8.Idx) :
    out0_A_2 c i arg2 harg2 arg3 harg3 arg4 harg4 hc0 x0 x1 (R8.emb x) = step x0 x1 (View.ld (k0_pay2 (F := F)) R8) x := by
  unfold out0_A_2
  unfold kernelRun0_A
  dsimp only
  sl_unfold_words
  rw [View.read_writes_cons_emb]
  simp only [View.readAt_eq_ld, harg2.read_unread, harg3.read_unread,
    View.ld_unit_zero (S := S8x16384x7) hz3, View.ld_unit_zero (S := S8x16384x5) hz3,
    View.readCov_eq_canon', View.canon_unit_zero (S := S1x8x128) hz3]
  rfl

/-! ## One lane of the accumulator after a point (at the extended reals) -/

open Idealize.ShloMosaic.ValueIdx

/-- The eight addends of a point: its block's five partial sums, then three zeros. -/
def lanes (x0 : Vec Ideal S8x16384x7 .f32) (x1 : Vec Ideal S8x16384x5 .f32) : Fin 8 → EReal :=
  ![k0_pay4 x0 x1, k0_pay8 (k0_pay5 x1) (k0_pay6 x0) (k0_pay7 x0) (Scalar.ofBits .f32 0xC2C80000#32),
    k0_pay9 x0 x1, k0_pay10 x0 x1, k0_pay11 x0 x1, Ideal.ofBits .f32 0x00000000#32, Ideal.ofBits .f32 0x00000000#32,
    Ideal.ofBits .f32 0x00000000#32]

theorem step_lane (x0 : Vec Ideal S8x16384x7 .f32) (x1 : Vec Ideal S8x16384x5 .f32) (acc : Vec Ideal S1x1x8 .f32) (k : Fin 8) :
    step x0 x1 acc (ix3 0 0 k) = acc (ix3 0 0 k) + lanes x0 x1 k := by
  unfold step k0_pay1
  refine (shapeCast_apply _ shapeCasts_S8_S1x1x8 (ix3 0 0 k) (ix1 k) ?_).trans ?_
  · rw [Shape.rowMajor_val_one, Shape.rowMajor_val_three]
    show k.val = ((0 : ℕ) * 1 + 0) * 8 + k.val
    omega
  show shapeCast S8 acc shapeCasts_S1x1x8_S8 (ix1 k) + _ = _
  congr 1
  · refine shapeCast_apply acc shapeCasts_S1x1x8_S8 (ix1 k) (ix3 0 0 k) ?_
    rw [Shape.rowMajor_val_one, Shape.rowMajor_val_three]
    show ((0 : ℕ) * 1 + 0) * 8 + k.val = k.val
    omega
  · exact concatenate_ofFn_unit_apply (t := S8) (s₁ := S1) (0 : Fin 1)
      (fun n : Fin 8 => (broadcast S1 (lanes x0 x1 n) : S1.Idx → EReal))
      concatenates_S1_S1_S1_S1_S1_S1_S1_S1_S8_d0 rfl rfl (ix1 k) k rfl (ix1 (0 : Fin 1))
      (fun b hb => absurd (Subsingleton.elim _ _) hb)

/-- The first five addends by name. -/
theorem lanes_0 (x0 : Vec Ideal S8x16384x7 .f32) (x1 : Vec Ideal S8x16384x5 .f32) : lanes x0 x1 0 = k0_pay4 x0 x1 := by
  unfold lanes; exact Matrix.cons_val_zero _ _
theorem lanes_1 (x0 : Vec Ideal S8x16384x7 .f32) (x1 : Vec Ideal S8x16384x5 .f32) : lanes x0 x1 1
    = k0_pay8 (k0_pay5 x1) (k0_pay6 x0) (k0_pay7 x0) (Scalar.ofBits .f32 0xC2C80000#32) := by
  unfold lanes; simp only [Matrix.cons_val]
theorem lanes_2 (x0 : Vec Ideal S8x16384x7 .f32) (x1 : Vec Ideal S8x16384x5 .f32) : lanes x0 x1 2 = k0_pay9 x0 x1 := by
  unfold lanes; simp only [Matrix.cons_val]
theorem lanes_3 (x0 : Vec Ideal S8x16384x7 .f32) (x1 : Vec Ideal S8x16384x5 .f32) : lanes x0 x1 3 = k0_pay10 x0 x1 := by
  unfold lanes; simp only [Matrix.cons_val]
theorem lanes_4 (x0 : Vec Ideal S8x16384x7 .f32) (x1 : Vec Ideal S8x16384x5 .f32) : lanes x0 x1 4 = k0_pay11 x0 x1 := by
  unfold lanes; simp only [Matrix.cons_val]

/-! ## The lanes after each point, and the fold over a group -/

section Fold

variable (m : (ℓ : Loc nD τ sig) → Buf (Elt Ideal) ℓ) (c : Dev nD)

/-- Lane k of row 0 of the staging buffer after the body at point n. -/
def lanesAt (n : ℕ) (h : n < cfg0.N) : Fin 8 → EReal := fun k => outsAt0 m c n h (R8.emb (ix3 0 0 k))

/-- Point n's eight addends, read off its two input blocks (zero past the grid, where it is never used). -/
def addend (n : ℕ) : Fin 8 → EReal :=
  fun k => if h : n < cfg0.N then lanes (iblk m c 0 ⟨n, h⟩) (iblk m c 1 ⟨n, h⟩) k else 0

/-- A group's first point: zeros, plus the point's addends. -/
theorem lanesAt_reset (n : ℕ) (h : n < cfg0.N) (h0 : n % 4 = 0) :
    lanesAt m c n h = fun k => Ideal.ofBits .f32 0x00000000#32 + addend m c n k := by
  funext k
  unfold lanesAt
  rw [outsAt0_A m c ⟨n, h⟩ h0]
  refine (outA_lane c (grid0.coords ⟨n, h⟩) (ms0_0 ⟨n, h⟩) (hs0_0 ⟨n, h⟩) (ms0_1 ⟨n, h⟩) (hs0_1 ⟨n, h⟩) (ms0_2 ⟨n, h⟩)
    (hs0_2 ⟨n, h⟩) ((hcond0_0 ⟨n, h⟩).mpr h0) (iblk m c 0 ⟨n, h⟩) (iblk m c 1 ⟨n, h⟩) (ix3 0 0 k)).trans ?_
  refine (step_lane (iblk m c 0 ⟨n, h⟩) (iblk m c 1 ⟨n, h⟩) (View.ld (k0_pay2 (F := Ideal)) R8) k).trans ?_
  unfold addend
  rw [dif_pos h]
  rfl

/-- A later point of the group: what the point before left, plus the point's addends. -/
theorem lanesAt_step (n : ℕ) (h : n + 1 < cfg0.N) (h0 : ¬(n + 1) % 4 = 0) :
    lanesAt m c (n + 1) h = fun k => lanesAt m c n (Nat.lt_of_succ_lt h) k + addend m c (n + 1) k := by
  funext k
  unfold lanesAt
  rw [outsAt0_B m c ⟨n + 1, h⟩ h0]
  refine (outB_lane c (grid0.coords ⟨n + 1, h⟩) (ms0_0 ⟨n + 1, h⟩) (hs0_0 ⟨n + 1, h⟩) (ms0_1 ⟨n + 1, h⟩) (hs0_1 ⟨n + 1, h⟩)
    (ms0_2 ⟨n + 1, h⟩) (hs0_2 ⟨n + 1, h⟩) (fun hc => h0 ((hcond0_0 ⟨n + 1, h⟩).mp hc)) (iblk m c 0 ⟨n + 1, h⟩)
    (iblk m c 1 ⟨n + 1, h⟩) (outsAt0 m c n (Nat.lt_of_succ_lt h)) (ix3 0 0 k)).trans ?_
  refine (step_lane (iblk m c 0 ⟨n + 1, h⟩) (iblk m c 1 ⟨n + 1, h⟩) (View.ld (outsAt0 m c n (Nat.lt_of_succ_lt h)) R8) k).trans ?_
  unfold addend
  rw [dif_pos h]
  rfl

/-- So after any point t lane k holds zero plus the addends of the points of t's group up to t. -/
theorem lanesAt_eq_sum (t : ℕ) (ht : t < cfg0.N) (k : Fin 8) :
    lanesAt m c t ht k
      = Ideal.ofBits .f32 0x00000000#32 + ∑ s ∈ Finset.range (t % 4 + 1), addend m c (4 * (t / 4) + s) k := by
  have h' : 4 * (t / 4) + t % 4 < cfg0.N := by rw [Nat.div_add_mod]; exact ht
  rw [Pipeline.eq_accAt_of_mod (lanesAt m c) 4 (fun n _ k => Ideal.ofBits .f32 0x00000000#32 + addend m c n k)
    (fun n _ acc k => acc k + addend m c n k) (fun n h h0 => lanesAt_reset m c n h h0)
    (fun n h h0 => lanesAt_step m c n h h0) (by decide) t ht h']
  exact Pipeline.accAt_add_apply _ _ (fun _ => Ideal.ofBits .f32 0x00000000#32) (addend m c) (4 * (t / 4)) (t % 4)
    (fun _ _ => rfl) (fun _ _ _ _ _ _ => rfl) (t % 4) (le_refl _) h' k

end Fold

end Cert.KernelIdeal.Acc
-- ==== Proof.Blocks.lean ====
/-
  Where the blocks sit, and what the accumulator array holds after the run.

  At grid point t = 4x + n the two input windows read the [8, 16384] patch of positions with rows 8x .. 8x+7 and columns
  16384n .. 16384n+16383; the accumulator's window is block x of the [16, 8, 128] result array at all four points of
  the group, and it is written back after the last of them. So entry (x, y, l) of the result array is what group x's
  staging buffer holds at (0, y, l) after point 4x + 3, and lane k of row 0 there is the sum of the k-th addends of the
  group's four points.
-/
import proofs.«106053_j86354612453429_1_alg».proof.Proof.Accum

set_option maxRecDepth 16384
noncomputable section
open scoped BigOperators
namespace Cert.KernelIdeal.Blocks
open Idealize.ShloMosaic Idealize.ShloMosaic.TcCoe Idealize.ShloMosaic.Tactic Idealize.SL.Sem Cert.KernelIdeal Cert.KernelIdeal.Gen
open Idealize.ShloMosaic.Pipeline (Dat)
open Idealize.ShloMosaic.ValueIdx Cert.KernelIdeal.Acc

variable (m : (ℓ : Loc nD τ sig) → Buf (Elt Ideal) ℓ) (c : Dev nD)

/-- The printed index maps, decided over the grid: at point t = 4b + n the two input windows sit at block (b, n, 0)
    and the accumulator's window at block (b, 0, 0). -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- The block of `output` at point t, read at (a, b, ch): the array at row 8·(t/4) + a, column 16384·(t%4) + b. -/
theorem iblk0_apply (t : Fin cfg0.N) (a : Fin 8) (b : Fin 16384) (ch : Fin 7) (r : Fin 128) (q : Fin 65536)
    (hr : r.val = 8 * (t.val / 4) + a.val) (hq : q.val = 16384 * (t.val % 4) + b.val) :
    (iblk m c 0 t : Vec Ideal S8x16384x7 .f32) (ix3 a b ch) = m ((c : Thread nD τ).loc main_arg0) (ix3 r q ch) := by
  obtain ⟨e0, e1, e2, -⟩ := idx_facts t
  unfold iblk
  rw [View.read_apply]
  show V m c main_arg0 _ = m (c.tc.loc main_arg0) _
  unfold V
  refine congrArg (m ((c : Thread nD τ).loc main_arg0)) (funext fun d => Fin.ext ?_)
  have ha := a.isLt
  have hb := b.isLt
  match d with
  | ⟨0, _⟩ => show win0_0.index t (0 : Fin 3) * 8 + 1 * a.val = r.val; rw [e0, hr]; omega
  | ⟨1, _⟩ => show win0_0.index t (1 : Fin 3) * 16384 + 1 * b.val = q.val; rw [e1, hq]; omega
  | ⟨2, _⟩ => show win0_0.index t (2 : Fin 3) * 7 + 1 * ch.val = ch.val; rw [e2]; omega

/-- The block of `target` at point t, read at (a, b, ch). -/
theorem iblk1_apply (t : Fin cfg0.N) (a : Fin 8) (b : Fin 16384) (ch : Fin 5) (r : Fin 128) (q : Fin 65536)
    (hr : r.val = 8 * (t.val / 4) + a.val) (hq : q.val = 16384 * (t.val % 4) + b.val) :
    (iblk m c 1 t : Vec Ideal S8x16384x5 .f32) (ix3 a b ch) = m ((c : Thread nD τ).loc main_arg1) (ix3 r q ch) := by
  obtain ⟨-, -, -, e0, e1, e2, -⟩ := idx_facts t
  unfold iblk
  rw [View.read_apply]
  show V m c main_arg1 _ = m (c.tc.loc main_arg1) _
  unfold V
  refine congrArg (m ((c : Thread nD τ).loc main_arg1)) (funext fun d => Fin.ext ?_)
  match d with
  | ⟨0, _⟩ => show win0_1.index t (0 : Fin 3) * 8 + 1 * a.val = r.val; rw [e0, hr]; omega
  | ⟨1, _⟩ => show win0_1.index t (1 : Fin 3) * 16384 + 1 * b.val = q.val; rw [e1, hq]; omega
  | ⟨2, _⟩ => show win0_1.index t (2 : Fin 3) * 5 + 1 * ch.val = ch.val; rw [e2]; omega

/-! ## The accumulator array after the run -/

theorem lt_N (x : Fin 16) : 4 * x.val + 3 < cfg0.N := by
  have h := x.isLt
  rw [show cfg0.N = 64 from N_0]; omega

/-- Entry (x, y, l) of the [16, 8, 128] array is what group x's staging buffer holds at (0, y, l) after the group's
    last point. -/
def G (i : S16x8x128.Idx) : Elt Ideal .f32 :=
  outsAt0 m c (4 * (i 0).val + 3) (lt_N (i 0)) (ix3 (0 : Fin 1) (i 1) (i 2))

theorem outsAt_congr (n n' : ℕ) (h : n < cfg0.N) (h' : n' < cfg0.N) (e : n = n') (j j' : S1x8x128.Idx) (ej : j = j') :
    outsAt0 m c n h j = outsAt0 m c n' h' j' := by
  subst e; subst ej; rfl

/-- What a flushing point writes back is its block of G. -/
theorem flushed_eq (t : Fin cfg0.N) (hf : (cfg0.win 2).flush t = true) :
    (dats m 0 c).flushed 2 t = ((cfg0.win 2).blk t).view.read (Elt Ideal) (G m c) := by
  have h3 : t.val % 4 = 3 := (flush0_2 t).mp hf
  obtain ⟨-, -, -, -, -, -, e0, e1, e2⟩ := idx_facts t
  show (cfg0.win 2).cut (grid0.coords t) ((dats m 0 c).after 2 t) = _
  rw [after0_2]
  funext j
  show outsAt0 m c t.val t.isLt j = G m c (((cfg0.win 2).blk t).view.emb j)
  have hj0 : (j 0).val < 1 := (j 0).isLt
  have E0 : ((((cfg0.win 2).blk t).view.emb j) 0).val = win0_2.index t (0 : Fin 3) * 1 + 1 * (j 0).val := rfl
  have E1 : ((((cfg0.win 2).blk t).view.emb j) 1).val = win0_2.index t (1 : Fin 3) * 8 + 1 * (j 1).val := rfl
  have E2 : ((((cfg0.win 2).blk t).view.emb j) 2).val = win0_2.index t (2 : Fin 3) * 128 + 1 * (j 2).val := rfl
  unfold G
  refine outsAt_congr m c _ _ _ _ (by rw [E0, e0]; omega) _ _ (funext fun d => Fin.ext ?_)
  match d with
  | ⟨0, _⟩ => show (j 0).val = 0; omega
  | ⟨1, _⟩ => show (j 1).val = ((((cfg0.win 2).blk t).view.emb j) 1).val; rw [E1, e1]; omega
  | ⟨2, _⟩ => show (j 2).val = ((((cfg0.win 2).blk t).view.emb j) 2).val; rw [E2, e2]; omega

/-- An index of the array is in point t's block iff each coordinate is in the block's range on its axis. -/
theorem mem_blk (t : Fin cfg0.N) (i : S16x8x128.Idx) :
    i ∈ ((cfg0.win 2).blk t).view.set ↔ ∀ a : Fin 3, win0_2.index t a * S1x8x128.size a ≤ (i a).val ∧ (i a).val < win0_2.index t a * S1x8x128.size a + S1x8x128.size a := by
  show i ∈ ((View.whole main_v0).slice (win0_2.rect t)).set ↔ _
  rw [View.set_slice_whole, Rect.mem_set_unit]
  exact Iff.rfl

/-- Every entry is in the block of its group's last point, which is written back. -/
theorem cover (i : S16x8x128.Idx) :
    ∃ t : Fin cfg0.N, (cfg0.win 2).flush t = true ∧ i ∈ ((cfg0.win 2).blk t).view.set := by
  have h0 : (i 0).val < 16 := (i 0).isLt
  have h1 : (i 1).val < 8 := (i 1).isLt
  have h2 : (i 2).val < 128 := (i 2).isLt
  refine ⟨⟨4 * (i 0).val + 3, lt_N (i 0)⟩, (flush0_2 _).mpr (by show (4 * (i 0).val + 3) % 4 = 3; omega), ?_⟩
  obtain ⟨-, -, -, -, -, -, e0, e1, e2⟩ := idx_facts ⟨4 * (i 0).val + 3, lt_N (i 0)⟩
  have e0' : win0_2.index ⟨4 * (i 0).val + 3, lt_N (i 0)⟩ (0 : Fin 3) = (i 0).val := by rw [e0]; show (4 * (i 0).val + 3) / 4 = _; omega
  rw [mem_blk]
  intro a
  match a with
  | ⟨0, _⟩ => show win0_2.index _ (0 : Fin 3) * 1 ≤ (i 0).val ∧ (i 0).val < win0_2.index _ (0 : Fin 3) * 1 + 1; rw [e0']; omega
  | ⟨1, _⟩ => show win0_2.index _ (1 : Fin 3) * 8 ≤ (i 1).val ∧ (i 1).val < win0_2.index _ (1 : Fin 3) * 8 + 8; rw [e1]; omega
  | ⟨2, _⟩ => show win0_2.index _ (2 : Fin 3) * 128 ≤ (i 2).val ∧ (i 2).val < win0_2.index _ (2 : Fin 3) * 128 + 128; rw [e2]; omega

/-- So the array ends holding G. -/
theorem final : (dats m 0 c).arrAt 2 cfg0.N = G m c :=
  (dats m 0 c).arrAt_eq_of_cover 2 (G m c) (flushed_eq m c) cover

/-- Lane k of row 0 of group x, after the run: the sum over the group's four points of their k-th addends. -/
theorem final_lane (x : Fin 16) (k : Fin 8) :
    (dats m 0 c).arrAt 2 cfg0.N (ix3 x (0 : Fin 8) (⟨k.val, by have := k.isLt; omega⟩ : Fin 128))
      = Ideal.ofBits .f32 0x00000000#32 + ∑ s ∈ Finset.range 4, addend m c (4 * x.val + s) k := by
  rw [final]
  have hx := x.isLt
  have e := lanesAt_eq_sum m c (4 * x.val + 3) (lt_N x) k
  rw [show (4 * x.val + 3) % 4 + 1 = 4 from by omega, show (4 * x.val + 3) / 4 = x.val from by omega] at e
  rw [← e]
  unfold G lanesAt
  refine outsAt_congr m c _ _ _ _ rfl _ _ (funext fun d => Fin.ext ?_)
  match d with
  | ⟨0, _⟩ => rfl
  | ⟨1, _⟩ => rfl
  | ⟨2, _⟩ => show k.val = 0 + 1 * k.val; omega
end Cert.KernelIdeal.Blocks
-- ==== Proof.LossTerms.lean ====
/-
  The scalar terms of the loss, over the extended reals.

  At a position (row r, column q) with channels out 0..6 of `output` and tgt 0..4 of `target`:
    presence : bce (out 0) (tgt 0)
    class k  : bce (out (4 + k)) (hot (tgt 4) k * tgt 0), k = 0, 1, 2
    x, y     : (out c - tgt c)^2, c = 1, 2
    w/h      : (sqrt (out 3) - sqrt (tgt 3))^2
  and with sp, sc, sx, sy, sw the sums of these over all positions (and classes) and T = 2^23 the number of positions,
    loss = 5 * (sx/T + sy/T + 2 * (sw/T)) + sp/T + 0.5 * (1 - sp/T) + sc.
  Two spellings of the same term meet here: a negation written 0 - x or -x, and a maximum with its operands in either
  order; on the extended reals they are equal, with no condition on the operands.
-/
import Idealize.ShloMosaic.PureOps.Ideal.Laws
import Idealize.ShloMosaic.Lib.ValueIdx

noncomputable section

open scoped BigOperators

namespace Cert.Loss

open Idealize.ShloMosaic Idealize.ShloMosaic.ValueIdx

/-- The float constants of the loss: 0, -100 (the clamp of the logarithms), 1, 2, 5, 1/2 and 2^23. -/
def z : EReal := Ideal.ofBits .f32 0x00000000#32
def lo : EReal := Ideal.ofBits .f32 0xC2C80000#32
def one : EReal := Ideal.ofBits .f32 0x3F800000#32
def two : EReal := Ideal.ofBits .f32 0x40000000#32
def five : EReal := Ideal.ofBits .f32 0x40A00000#32
def half : EReal := Ideal.ofBits .f32 0x3F000000#32
def total : EReal := Ideal.ofBits .f32 0x4B000000#32

/-- Binary cross-entropy of a probability p against a target t, both logarithms clamped below at -100. -/
def bce (p t : EReal) : EReal :=
  z - (t * max (Ideal.log p) lo + (one - t) * max (Ideal.log1p (z - p)) lo)

/-- A squared difference. -/
def sqd (a b : EReal) : EReal := (a - b) * (a - b)

/-- The one-hot factor: 1 when g, rounded toward zero to a 32-bit integer, is the class number k, else 0. -/
def hot (g : EReal) (k : ℕ) : EReal :=
  (((IntOp.cmpi .eq (Ideal.fptosi 32 g) (BitVec.ofNat 32 k)).toNat : ℝ) : EReal)

/-- The loss from the five sums. -/
def loss (sp sc sx sy sw : EReal) : EReal :=
  ((five * ((Ideal.div sx total + Ideal.div sy total) + two * Ideal.div sw total) + Ideal.div sp total)
    + half * (one - Ideal.div sp total)) + sc

/-- A one-bit word widened to 32 bits and read signed is the bit read unsigned. -/
theorem toInt_setWidth_bit (b : BitVec 1) : ((b.setWidth 32).toInt : ℝ) = (b.toNat : ℝ) := by
  have h : b = 0#1 ∨ b = 1#1 := by revert b; decide
  rcases h with rfl | rfl <;> simp

/-- So the one-hot factor computed as the compare's bit widened to 32 bits and converted as a signed integer is the
    bit itself as a real number. -/
theorem sitofp_bit (b : BitVec 1) : FloatOps.sitofp (F := Ideal) .f32 (b.setWidth 32) = ((b.toNat : ℝ) : EReal) :=
  congrArg (fun r : ℝ => (r : EReal)) (toInt_setWidth_bit b)

/-- The cross-entropy with the negations written -x and the clamp's operands exchanged is the same term:
    0 - x = -x and max is commutative. -/
theorem bce_host (p t : Ideal .f32) :
    FloatOps.hostNegf (FloatOps.addf (FloatOps.mulf t (FloatOps.maximumf (lo : Ideal .f32) (FloatOps.hostUnary .log p)))
      (FloatOps.mulf (FloatOps.subf (one : Ideal .f32) t)
        (FloatOps.maximumf (lo : Ideal .f32) (FloatOps.hostUnary .log1p (FloatOps.hostNegf p)))))
      = bce p t := by
  show -(t * max lo (Ideal.log p) + (one - t) * max lo (Ideal.log1p (-p))) = bce p t
  unfold bce z
  rw [Ideal.ofBits_zero_f32, zero_sub, zero_sub, max_comm lo (Ideal.log p), max_comm lo (Ideal.log1p (-p))]

/-! ## A rank-3 index set as a triple product -/

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The loss of two whole arrays: the five sums over all 128 x 65536 positions (and the three classes), combined. -/
def value (A0 : (⟨3, ![128, 65536, 7]⟩ : Shape).Idx → EReal) (A1 : (⟨3, ![128, 65536, 5]⟩ : Shape).Idx → EReal) : EReal :=
  loss
    (z + ∑ r : Fin 128, ∑ q : Fin 65536, bce (A0 (ix3 r q 0)) (A1 (ix3 r q 0)))
    (z + ∑ r : Fin 128, ∑ q : Fin 65536, ∑ k : Fin 3,
      bce (A0 (ix3 r q ⟨4 + k.val, by have := k.isLt; omega⟩)) (hot (A1 (ix3 r q 4)) k.val * A1 (ix3 r q 0)))
    (z + ∑ r : Fin 128, ∑ q : Fin 65536, sqd (A0 (ix3 r q 1)) (A1 (ix3 r q 1)))
    (z + ∑ r : Fin 128, ∑ q : Fin 65536, sqd (A0 (ix3 r q 2)) (A1 (ix3 r q 2)))
    (z + ∑ r : Fin 128, ∑ q : Fin 65536, sqd (Ideal.sqrt (A0 (ix3 r q 3))) (Ideal.sqrt (A1 (ix3 r q 3))))

end Cert.Loss
-- ==== Proof.KernelTerms.lean ====
/-
  The kernel's five partial sums over one block, as sums of per-position terms.

  A block is an [8, 16384] patch of positions; at a position the body reads the seven channels of `output` and the five
  of `target`. Each of the five scalars it adds into the accumulator is a sum over every axis of a vector computed
  position by position, so it is the sum over the positions (and, for the class term, over the three classes) of a
  scalar term of those channels:
    presence : bce (out 0) (tgt 0)
    class k  : bce (out (4 + k)) (hot (tgt 4) k * tgt 0)
    x, y     : (out c - tgt c)^2 for c = 1, 2
    w/h      : (sqrt (out 3) - sqrt (tgt 3))^2
  (the terms bce, hot and the squared difference are the scalar terms of the loss).
-/
import proofs.«106053_j86354612453429_1_alg».proof.Proof.Gen.KernelIdeal.Skeleton
import proofs.«106053_j86354612453429_1_alg».proof.Proof.LossTerms
import Idealize.ShloMosaic.Lib.Pipeline.Value

noncomputable section

open scoped BigOperators

/-! ## Layout reads over an [8, 16384] block -/

namespace Cert.KernelIdeal.Terms

open Idealize.ShloMosaic Idealize.ShloMosaic.ValueIdx Cert.KernelIdeal Cert.KernelIdeal.Gen Cert.Loss

/-- Channel ch of a block [8, 16384, C], cut out as a column and the unit axis dropped, at position (a, b). -/
theorem chan {C : ℕ} {α : Type} (ch : ℕ) (hch : ch < C) (x : (⟨3, ![8, 16384, C]⟩ : Shape).Idx → α)
    (hs : (⟨3, ![8, 16384, C]⟩ : Shape).Slices ![0, 0, ch] ⟨3, ![8, 16384, 1]⟩)
    (hc : (⟨3, ![8, 16384, 1]⟩ : Shape).ShapeCasts ⟨2, ![8, 16384]⟩) (a : Fin 8) (b : Fin 16384) :
    shapeCast ⟨2, ![8, 16384]⟩ (extractStridedSlice ⟨3, ![8, 16384, 1]⟩ ![0, 0, ch] x hs) hc (ix2 a b)
      = x (ix3 a b ⟨ch, hch⟩) := by
  refine (shapeCast_apply _ hc (ix2 a b) (ix3 a b (0 : Fin 1)) ?_).trans ?_
  · rw [Shape.rowMajor_val_three, Shape.rowMajor_val_two]
    show (a.val * 16384 + b.val) * 1 + 0 = a.val * 16384 + b.val
    omega
  · exact extractStridedSlice_apply _ x hs _ _ (fun d => match d with
      | ⟨0, _⟩ => by show a.val = 0 + a.val; omega
      | ⟨1, _⟩ => by show b.val = 0 + b.val; omega
      | ⟨2, _⟩ => by show ch = ch + 0; omega)

/-- A per-position value repeated over the three classes: the unit axis added, then broadcast along it. -/
theorem perClass {α : Type} (u : (⟨2, ![8, 16384]⟩ : Shape).Idx → α)
    (hc : (⟨2, ![8, 16384]⟩ : Shape).ShapeCasts ⟨3, ![8, 16384, 1]⟩)
    (hb : (⟨3, ![8, 16384, 1]⟩ : Shape).Broadcasts ⟨3, ![8, 16384, 3]⟩) (a : Fin 8) (b : Fin 16384) (k : Fin 3) :
    broadcastTo ⟨3, ![8, 16384, 3]⟩ (shapeCast ⟨3, ![8, 16384, 1]⟩ u hc) hb (ix3 a b k) = u (ix2 a b) := by
  refine (broadcastTo_apply _ hb (ix3 a b k) (ix3 a b (0 : Fin 1)) (fun d => match d with
      | ⟨0, _⟩ => by show a.val = if (8 : ℕ) = 1 then 0 else a.val; rw [if_neg (by decide)]
      | ⟨1, _⟩ => by show b.val = if (16384 : ℕ) = 1 then 0 else b.val; rw [if_neg (by decide)]
      | ⟨2, _⟩ => by show 0 = if (1 : ℕ) = 1 then 0 else k.val; rw [if_pos rfl])).trans ?_
  refine shapeCast_apply u hc _ (ix2 a b) ?_
  rw [Shape.rowMajor_val_three, Shape.rowMajor_val_two]
  show a.val * 16384 + b.val = (a.val * 16384 + b.val) * 1 + 0
  omega

/-- Channels 4, 5, 6 of `output` cut out as a block [8, 16384, 3], at (a, b, k). -/
theorem chan3 {α : Type} (x : (⟨3, ![8, 16384, 7]⟩ : Shape).Idx → α)
    (hs : (⟨3, ![8, 16384, 7]⟩ : Shape).Slices ![0, 0, 4] ⟨3, ![8, 16384, 3]⟩) (a : Fin 8) (b : Fin 16384) (k : Fin 3) :
    extractStridedSlice ⟨3, ![8, 16384, 3]⟩ ![0, 0, 4] x hs (ix3 a b k)
      = x (ix3 a b ⟨4 + k.val, by have := k.isLt; omega⟩) :=
  extractStridedSlice_apply _ x hs _ _ (fun d => match d with
    | ⟨0, _⟩ => by show a.val = 0 + a.val; omega
    | ⟨1, _⟩ => by show b.val = 0 + b.val; omega
    | ⟨2, _⟩ => rfl)

/-! ## A sum over every axis of a block is the sum over its positions -/

theorem unit1 : ∀ b : Fin S1.rank, S1.size b = 1 := fun b => by
  have hb : b.val < 1 := b.isLt
  have : b = ⟨0, Nat.one_pos⟩ := Fin.ext (by show b.val = 0; omega)
  subst this; rfl

theorem sum_shapeCast {s t : Shape} (v : s.Idx → EReal) (hc : s.ShapeCasts t) :
    ∑ j : t.Idx, shapeCast t v hc j = ∑ i : s.Idx, v i :=
  Equiv.sum_comp (Shape.reshapeEquiv hc) v

theorem blockSum2 (v : FVec Ideal S8x16384 .f32) (hφ : FKind.Formats .f32)
    (hacc : (0x00000000#32 : BitVec 32) = FKind.add.neutral .f32 hφ) (j : S1.Idx) :
    multiReduction .add [1, 2] S1 (shapeCast S1x8x16384 v shapeCasts_S8x16384_S1x8x16384) 0x00000000#32
        reduces_S1x8x16384_S1 hφ hacc j
      = ∑ a : Fin 8, ∑ b : Fin 16384, v (ix2 a b) :=
  ((Ideal.multiReduction_add_total _ _ reduces_S1x8x16384_S1 unit1 hφ hacc j).trans (sum_shapeCast v _)).trans
    (sum_idx2 v)

theorem blockSum3 (v : FVec Ideal S8x16384x3 .f32) (hφ : FKind.Formats .f32)
    (hacc : (0x00000000#32 : BitVec 32) = FKind.add.neutral .f32 hφ) (j : S1.Idx) :
    multiReduction .add [1, 2, 3] S1 (shapeCast S1x8x16384x3 v shapeCasts_S8x16384x3_S1x8x16384x3) 0x00000000#32
        reduces_S1x8x16384x3_S1 hφ hacc j
      = ∑ a : Fin 8, ∑ b : Fin 16384, ∑ k : Fin 3, v (ix3 a b k) :=
  ((Ideal.multiReduction_add_total _ _ reduces_S1x8x16384x3_S1 unit1 hφ hacc j).trans (sum_shapeCast v _)).trans
    (sum_idx3 v)

/-! ## The five payloads -/

variable (x0 : Vec Ideal S8x16384x7 .f32) (x1 : Vec Ideal S8x16384x5 .f32)

/-- The squared differences of channel 1. -/
theorem pay9_eq : k0_pay9 (F := Ideal) x0 x1
    = ∑ a : Fin 8, ∑ b : Fin 16384, sqd (x0 (ix3 a b 1)) (x1 (ix3 a b 1)) := by
  unfold k0_pay9
  refine (blockSum2 _ (.inl rfl) rfl _).trans ?_
  refine Finset.sum_congr rfl fun a _ => Finset.sum_congr rfl fun b _ => ?_
  show (_ - _) * (_ - _) = _
  rw [chan 1 (by decide) x0, chan 1 (by decide) x1]
  rfl

/-- The squared differences of channel 2. -/
theorem pay10_eq : k0_pay10 (F := Ideal) x0 x1
    = ∑ a : Fin 8, ∑ b : Fin 16384, sqd (x0 (ix3 a b 2)) (x1 (ix3 a b 2)) := by
  unfold k0_pay10
  refine (blockSum2 _ (.inl rfl) rfl _).trans ?_
  refine Finset.sum_congr rfl fun a _ => Finset.sum_congr rfl fun b _ => ?_
  show (_ - _) * (_ - _) = _
  rw [chan 2 (by decide) x0, chan 2 (by decide) x1]
  rfl

/-- The squared differences of the square roots of channel 3. -/
theorem pay11_eq : k0_pay11 (F := Ideal) x0 x1
    = ∑ a : Fin 8, ∑ b : Fin 16384, sqd (Ideal.sqrt (x0 (ix3 a b 3))) (Ideal.sqrt (x1 (ix3 a b 3))) := by
  unfold k0_pay11
  refine (blockSum2 _ (.inl rfl) rfl _).trans ?_
  refine Finset.sum_congr rfl fun a _ => Finset.sum_congr rfl fun b _ => ?_
  show (Ideal.sqrt _ - Ideal.sqrt _) * (Ideal.sqrt _ - Ideal.sqrt _) = _
  rw [chan 3 (by decide) x0, chan 3 (by decide) x1]
  rfl

/-- The presence term: channel 0 of `output` against channel 0 of `target`. -/
theorem pay4_eq : k0_pay4 (F := Ideal) x0 x1
    = ∑ a : Fin 8, ∑ b : Fin 16384, bce (x0 (ix3 a b 0)) (x1 (ix3 a b 0)) := by
  unfold k0_pay4 k0_pay3
  dsimp only
  refine (blockSum2 _ (.inl rfl) rfl _).trans ?_
  refine Finset.sum_congr rfl fun a _ => Finset.sum_congr rfl fun b _ => ?_
  show z - (_ * max (Ideal.log _) lo + (one - _) * max (Ideal.log1p (z - _)) lo) = _
  rw [chan 0 (by decide) x0, chan 0 (by decide) x1]
  rfl

/-- The class term. -/
theorem pay8_eq : k0_pay8 (F := Ideal) (k0_pay5 x1) (k0_pay6 x0) (k0_pay7 x0) (Scalar.ofBits .f32 0xC2C80000#32)
    = ∑ a : Fin 8, ∑ b : Fin 16384, ∑ k : Fin 3,
        bce (x0 (ix3 a b ⟨4 + k.val, by have := k.isLt; omega⟩)) (hot (x1 (ix3 a b 4)) k.val * x1 (ix3 a b 0)) := by
  unfold k0_pay8 k0_pay7 k0_pay6 k0_pay5 k0_pay3
  refine (blockSum3 _ (.inl rfl) rfl _).trans ?_
  refine Finset.sum_congr rfl fun a _ => Finset.sum_congr rfl fun b _ => Finset.sum_congr rfl fun k _ => ?_
  dsimp only [mulf, subf, addf, maximumf, log, log1p, broadcast, sitofp, extui, cmpi]
  rw [perClass, perClass, chan3 x0, chan 0 (by decide) x1, iota_single_apply]
  dsimp only [fptosi]
  rw [chan 4 (by decide) x1, sitofp_bit]
  rfl

end Cert.KernelIdeal.Terms
-- ==== Proof.LibSums.lean ====
/-
  Re-indexing of finite sums: a sum over n·m consecutive positions as a double sum over n blocks of m, and its
  instances for the row pairs (100000 = 50000·2), the row blocks (50000 = 10·5000) and a block-diagonal
  contraction (128 = 2·64).
-/
import Mathlib

open scoped BigOperators

namespace Cert.Repack

/-- Position b of block a, among n blocks of m, lies below n·m. -/
theorem block_lt {n m N a b : ℕ} (h : n * m = N) (ha : a < n) (hb : b < m) : m * a + b < N := by
  have h1 : m * (a + 1) ≤ m * n := Nat.mul_le_mul_left m ha
  have h2 : m * (a + 1) = m * a + m := Nat.mul_succ m a
  have h3 : m * n = N := by rw [Nat.mul_comm]; exact h
  omega

/-- BLOCKS. A sum over N = n·m positions is the sum over the n blocks of the sums over each block's m positions,
    position b of block a being m·a + b. -/
theorem sum_blocks {M : Type*} [AddCommMonoid M] {N : ℕ} (n m : ℕ) (h : n * m = N) (g : Fin N → M) :
    ∑ k : Fin N, g k = ∑ a : Fin n, ∑ b : Fin m, g ⟨m * a.val + b.val, block_lt h a.isLt b.isLt⟩ := by
  subst h
  rw [← Equiv.sum_comp finProdFinEquiv g, Fintype.sum_prod_type]
  refine Finset.sum_congr rfl fun a _ => Finset.sum_congr rfl fun b _ => ?_
  refine congrArg g (Fin.ext ?_)
  show b.val + m * a.val = m * a.val + b.val
  omega

/-- ROW PAIRS. A sum over 100000 rows is the sum over the even rows plus the sum over the odd rows. -/
theorem sum_rows_even_odd {M : Type*} [AddCommMonoid M] (g : Fin 100000 → M) :
    ∑ r : Fin 100000, g r
      = ∑ i : Fin 50000, g ⟨2 * i.val, by have := i.isLt; omega⟩
        + ∑ i : Fin 50000, g ⟨2 * i.val + 1, by have := i.isLt; omega⟩ := by
  rw [sum_blocks 50000 2 (by norm_num) g, ← Finset.sum_add_distrib]
  refine Finset.sum_congr rfl fun i _ => ?_
  rw [Fin.sum_univ_two]
  rfl

/-- ROW BLOCKS. A sum over 50000 rows is the sum over 10 blocks of the sums over each block's 5000 rows. -/
theorem sum_row_blocks {M : Type*} [AddCommMonoid M] (g : Fin 50000 → M) :
    ∑ i : Fin 50000, g i
      = ∑ t : Fin 10, ∑ r : Fin 5000, g ⟨5000 * t.val + r.val, by have := t.isLt; have := r.isLt; omega⟩ := by
  rw [sum_blocks 10 5000 (by norm_num) g]

/-- BLOCK-DIAGONAL CONTRACTION. Against a column that is w on the e-th block of 64 positions and zero on the other,
    a contraction over 128 positions is the contraction over that block's 64 positions (each term of the other
    block is a product with zero). -/
theorem sum_block_diag (f : Fin 128 → EReal) (w : Fin 64 → EReal) (e : Fin 2) :
    ∑ k : Fin 128, f k * (if k.val / 64 = e.val then w ⟨k.val % 64, Nat.mod_lt _ (by norm_num)⟩ else 0)
      = ∑ k : Fin 64, f ⟨64 * e.val + k.val, by have := e.isLt; have := k.isLt; omega⟩ * w k := by
  rw [sum_blocks 2 64 (by norm_num)]
  have hblock : ∀ a : Fin 2,
      (∑ b : Fin 64, f ⟨64 * a.val + b.val, block_lt (by norm_num) a.isLt b.isLt⟩
          * (if (64 * a.val + b.val) / 64 = e.val
              then w ⟨(64 * a.val + b.val) % 64, Nat.mod_lt _ (by norm_num)⟩ else 0))
        = if a = e then ∑ k : Fin 64, f ⟨64 * e.val + k.val, by have := e.isLt; have := k.isLt; omega⟩ * w k else 0 := by
    intro a
    by_cases hae : a = e
    · subst hae
      rw [if_pos rfl]
      refine Finset.sum_congr rfl fun b _ => ?_
      have hb := b.isLt
      rw [if_pos (by omega)]
      congr 2
      exact Fin.ext (by show (64 * a.val + b.val) % 64 = b.val; omega)
    · rw [if_neg hae]
      refine Finset.sum_eq_zero fun b _ => ?_
      have hb := b.isLt
      have hne : ¬ (64 * a.val + b.val) / 64 = e.val := by
        intro hc
        exact hae (Fin.ext (by omega))
      rw [if_neg hne, mul_zero]
  exact (Finset.sum_congr rfl fun a _ => hblock a).trans (by rw [Finset.sum_ite_eq' Finset.univ e]; simp)

end Cert.Repack
-- ==== Proof.KernelSums.lean ====
/-
  The kernel's five sums over the whole arrays.

  Lane k of row 0 of group x of the accumulator array is the sum over the group's four points 4x + s of their k-th
  addends, and the addend of point 4x + s is the sum of a scalar term over the positions of its block: rows 8x + a,
  columns 16384 s + b. Summed over the sixteen groups, that is the sum of the term over all 128 x 65536 positions:
  128 = 16 * 8 rows, 65536 = 4 * 16384 columns, the four sums exchanged as sums in a commutative monoid may be (no
  finiteness of the terms is asked).
-/
import proofs.«106053_j86354612453429_1_alg».proof.Proof.Blocks
import proofs.«106053_j86354612453429_1_alg».proof.Proof.KernelTerms
import proofs.«106053_j86354612453429_1_alg».proof.Proof.LibSums

set_option maxRecDepth 16384

noncomputable section

open scoped BigOperators

namespace Cert.KernelIdeal.Sums

open Idealize.ShloMosaic Idealize.ShloMosaic.TcCoe Idealize.SL.Sem Cert.KernelIdeal Cert.KernelIdeal.Gen
open Idealize.ShloMosaic.ValueIdx Cert.KernelIdeal.Acc Cert.KernelIdeal.Blocks Cert.KernelIdeal.Terms Cert.Loss

/-- Row 8x + a of block row x, column 16384 s + b of block column s. -/
abbrev row (x : Fin 16) (a : Fin 8) : Fin 128 := ⟨8 * x.val + a.val, Cert.Repack.block_lt (by norm_num) x.isLt a.isLt⟩
abbrev col (s : Fin 4) (b : Fin 16384) : Fin 65536 := ⟨16384 * s.val + b.val, Cert.Repack.block_lt (by norm_num) s.isLt b.isLt⟩

/-- A sum over all positions, cut into the 16 x 4 blocks of 8 x 16384 positions. -/
theorem regroup {M : Type*} [AddCommMonoid M] (P : Fin 128 → Fin 65536 → M) :
    ∑ x : Fin 16, ∑ s : Fin 4, ∑ a : Fin 8, ∑ b : Fin 16384, P (row x a) (col s b) = ∑ r : Fin 128, ∑ q : Fin 65536, P r q := by
  rw [Cert.Repack.sum_blocks 16 8 (by norm_num) (fun r => ∑ q : Fin 65536, P r q)]
  refine Finset.sum_congr rfl fun x _ => ?_
  rw [Finset.sum_comm]
  refine Finset.sum_congr rfl fun a _ => ?_
  exact (Cert.Repack.sum_blocks 4 16384 (by norm_num) (fun q => P (row x a) q)).symm

variable (m : (ℓ : Loc nD τ sig) → Buf (Elt Ideal) ℓ) (c : Dev nD)

theorem pt_lt (x : Fin 16) (s : Fin 4) : 4 * x.val + s.val < cfg0.N := by
  have hx := x.isLt; have hs := s.isLt
  rw [show cfg0.N = 64 from N_0]; omega

/-- Lane k of row 0 of group x of the accumulator array after the run, as an extended real. -/
def lane (x : Fin 16) (k : Fin 8) : EReal :=
  (dats m 0 c).arrAt 2 cfg0.N (ix3 x (0 : Fin 8) (⟨k.val, by have := k.isLt; omega⟩ : Fin 128))

theorem lane_eq (x : Fin 16) (k : Fin 8) :
    lane m c x k = Ideal.ofBits .f32 0x00000000#32 + ∑ s ∈ Finset.range 4, addend m c (4 * x.val + s) k :=
  final_lane m c x k

/-- From the addends of the points to the sum over all positions: if point 4x + s adds, into lane k, the sum of P
    over its block's positions, then lane k of row 0 summed over the groups is the sum of P over all positions. -/
theorem lane_total (k : Fin 8) (P : Fin 128 → Fin 65536 → EReal)
    (hP : ∀ (x : Fin 16) (s : Fin 4), addend m c (4 * x.val + s.val) k = ∑ a : Fin 8, ∑ b : Fin 16384, P (row x a) (col s b)) :
    z + ∑ x : Fin 16, lane m c x k = z + ∑ r : Fin 128, ∑ q : Fin 65536, P r q := by
  refine congrArg (z + ·) ?_
  rw [← regroup P]
  refine Finset.sum_congr rfl fun x _ => ?_
  rw [lane_eq m c x k, Ideal.ofBits_zero_f32, zero_add, Finset.sum_range]
  exact Finset.sum_congr rfl fun s _ => hP x s

/-! ## The addends of point 4x + s, over the argument arrays -/

section Addends

variable (x : Fin 16) (s : Fin 4)

theorem row_eq (a : Fin 8) : (row x a).val = 8 * ((⟨4 * x.val + s.val, pt_lt x s⟩ : Fin cfg0.N).val / 4) + a.val := by
  have hs := s.isLt
  show 8 * x.val + a.val = 8 * ((4 * x.val + s.val) / 4) + a.val
  omega

theorem col_eq (b : Fin 16384) : (col s b).val = 16384 * ((⟨4 * x.val + s.val, pt_lt x s⟩ : Fin cfg0.N).val % 4) + b.val := by
  have hs := s.isLt
  show 16384 * s.val + b.val = 16384 * ((4 * x.val + s.val) % 4) + b.val
  omega

/-- Channel ch of `output` / `target` in the block of point 4x + s at (a, b) is the array at (row x a, col s b). -/
theorem out_at (a : Fin 8) (b : Fin 16384) (ch : Fin 7) :
    (iblk m c 0 ⟨4 * x.val + s.val, pt_lt x s⟩ : Vec Ideal S8x16384x7 .f32) (ix3 a b ch)
      = m ((c : Thread nD τ).loc main_arg0) (ix3 (row x a) (col s b) ch) :=
  iblk0_apply m c ⟨4 * x.val + s.val, pt_lt x s⟩ a b ch (row x a) (col s b) (row_eq x s a) (col_eq x s b)

theorem tgt_at (a : Fin 8) (b : Fin 16384) (ch : Fin 5) :
    (iblk m c 1 ⟨4 * x.val + s.val, pt_lt x s⟩ : Vec Ideal S8x16384x5 .f32) (ix3 a b ch)
      = m ((c : Thread nD τ).loc main_arg1) (ix3 (row x a) (col s b) ch) :=
  iblk1_apply m c ⟨4 * x.val + s.val, pt_lt x s⟩ a b ch (row x a) (col s b) (row_eq x s a) (col_eq x s b)

theorem addend_pres : addend m c (4 * x.val + s.val) 0
    = ∑ a : Fin 8, ∑ b : Fin 16384, bce (m ((c : Thread nD τ).loc main_arg0) (ix3 (row x a) (col s b) 0))
        (m ((c : Thread nD τ).loc main_arg1) (ix3 (row x a) (col s b) 0)) := by
  unfold addend
  rw [dif_pos (pt_lt x s)]
  refine ((lanes_0 (iblk m c 0 ⟨4 * x.val + s.val, pt_lt x s⟩) (iblk m c 1 ⟨4 * x.val + s.val, pt_lt x s⟩)).trans
    (pay4_eq (iblk m c 0 ⟨4 * x.val + s.val, pt_lt x s⟩) (iblk m c 1 ⟨4 * x.val + s.val, pt_lt x s⟩))).trans ?_
  exact Finset.sum_congr rfl fun a _ => Finset.sum_congr rfl fun b _ =>
    congrArg₂ bce (out_at m c x s a b 0) (tgt_at m c x s a b 0)

theorem addend_class : addend m c (4 * x.val + s.val) 1
    = ∑ a : Fin 8, ∑ b : Fin 16384, ∑ k : Fin 3,
        bce (m ((c : Thread nD τ).loc main_arg0) (ix3 (row x a) (col s b) ⟨4 + k.val, by have := k.isLt; omega⟩))
          (hot (m ((c : Thread nD τ).loc main_arg1) (ix3 (row x a) (col s b) 4)) k.val
            * m ((c : Thread nD τ).loc main_arg1) (ix3 (row x a) (col s b) 0)) := by
  unfold addend
  rw [dif_pos (pt_lt x s)]
  refine ((lanes_1 (iblk m c 0 ⟨4 * x.val + s.val, pt_lt x s⟩) (iblk m c 1 ⟨4 * x.val + s.val, pt_lt x s⟩)).trans
    (pay8_eq (iblk m c 0 ⟨4 * x.val + s.val, pt_lt x s⟩) (iblk m c 1 ⟨4 * x.val + s.val, pt_lt x s⟩))).trans ?_
  exact Finset.sum_congr rfl fun a _ => Finset.sum_congr rfl fun b _ => Finset.sum_congr rfl fun k _ =>
    congrArg₂ bce (out_at m c x s a b ⟨4 + k.val, by have := k.isLt; omega⟩)
      (congrArg₂ (· * ·) (congrArg (hot · k.val) (tgt_at m c x s a b 4)) (tgt_at m c x s a b 0))

theorem addend_x : addend m c (4 * x.val + s.val) 2
    = ∑ a : Fin 8, ∑ b : Fin 16384, sqd (m ((c : Thread nD τ).loc main_arg0) (ix3 (row x a) (col s b) 1))
        (m ((c : Thread nD τ).loc main_arg1) (ix3 (row x a) (col s b) 1)) := by
  unfold addend
  rw [dif_pos (pt_lt x s)]
  refine ((lanes_2 (iblk m c 0 ⟨4 * x.val + s.val, pt_lt x s⟩) (iblk m c 1 ⟨4 * x.val + s.val, pt_lt x s⟩)).trans
    (pay9_eq (iblk m c 0 ⟨4 * x.val + s.val, pt_lt x s⟩) (iblk m c 1 ⟨4 * x.val + s.val, pt_lt x s⟩))).trans ?_
  exact Finset.sum_congr rfl fun a _ => Finset.sum_congr rfl fun b _ =>
    congrArg₂ sqd (out_at m c x s a b 1) (tgt_at m c x s a b 1)

theorem addend_y : addend m c (4 * x.val + s.val) 3
    = ∑ a : Fin 8, ∑ b : Fin 16384, sqd (m ((c : Thread nD τ).loc main_arg0) (ix3 (row x a) (col s b) 2))
        (m ((c : Thread nD τ).loc main_arg1) (ix3 (row x a) (col s b) 2)) := by
  unfold addend
  rw [dif_pos (pt_lt x s)]
  refine ((lanes_3 (iblk m c 0 ⟨4 * x.val + s.val, pt_lt x s⟩) (iblk m c 1 ⟨4 * x.val + s.val, pt_lt x s⟩)).trans
    (pay10_eq (iblk m c 0 ⟨4 * x.val + s.val, pt_lt x s⟩) (iblk m c 1 ⟨4 * x.val + s.val, pt_lt x s⟩))).trans ?_
  exact Finset.sum_congr rfl fun a _ => Finset.sum_congr rfl fun b _ =>
    congrArg₂ sqd (out_at m c x s a b 2) (tgt_at m c x s a b 2)

theorem addend_wh : addend m c (4 * x.val + s.val) 4
    = ∑ a : Fin 8, ∑ b : Fin 16384, sqd (Ideal.sqrt (m ((c : Thread nD τ).loc main_arg0) (ix3 (row x a) (col s b) 3)))
        (Ideal.sqrt (m ((c : Thread nD τ).loc main_arg1) (ix3 (row x a) (col s b) 3))) := by
  unfold addend
  rw [dif_pos (pt_lt x s)]
  refine ((lanes_4 (iblk m c 0 ⟨4 * x.val + s.val, pt_lt x s⟩) (iblk m c 1 ⟨4 * x.val + s.val, pt_lt x s⟩)).trans
    (pay11_eq (iblk m c 0 ⟨4 * x.val + s.val, pt_lt x s⟩) (iblk m c 1 ⟨4 * x.val + s.val, pt_lt x s⟩))).trans ?_
  exact Finset.sum_congr rfl fun a _ => Finset.sum_congr rfl fun b _ =>
    congrArg₂ sqd (congrArg Ideal.sqrt (out_at m c x s a b 3)) (congrArg Ideal.sqrt (tgt_at m c x s a b 3))

end Addends

/-! ## The five sums over the whole arrays -/

theorem total_pres : z + ∑ x : Fin 16, lane m c x 0
    = z + ∑ r : Fin 128, ∑ q : Fin 65536, bce (m ((c : Thread nD τ).loc main_arg0) (ix3 r q 0))
        (m ((c : Thread nD τ).loc main_arg1) (ix3 r q 0)) :=
  lane_total m c 0 (fun r q => bce (m ((c : Thread nD τ).loc main_arg0) (ix3 r q 0))
    (m ((c : Thread nD τ).loc main_arg1) (ix3 r q 0))) (addend_pres m c)

theorem total_class : z + ∑ x : Fin 16, lane m c x 1
    = z + ∑ r : Fin 128, ∑ q : Fin 65536, ∑ k : Fin 3,
        bce (m ((c : Thread nD τ).loc main_arg0) (ix3 r q ⟨4 + k.val, by have := k.isLt; omega⟩))
          (hot (m ((c : Thread nD τ).loc main_arg1) (ix3 r q 4)) k.val * m ((c : Thread nD τ).loc main_arg1) (ix3 r q 0)) :=
  lane_total m c 1 (fun r q => ∑ k : Fin 3,
    bce (m ((c : Thread nD τ).loc main_arg0) (ix3 r q ⟨4 + k.val, by have := k.isLt; omega⟩))
      (hot (m ((c : Thread nD τ).loc main_arg1) (ix3 r q 4)) k.val * m ((c : Thread nD τ).loc main_arg1) (ix3 r q 0)))
    (addend_class m c)

theorem total_x : z + ∑ x : Fin 16, lane m c x 2
    = z + ∑ r : Fin 128, ∑ q : Fin 65536, sqd (m ((c : Thread nD τ).loc main_arg0) (ix3 r q 1))
        (m ((c : Thread nD τ).loc main_arg1) (ix3 r q 1)) :=
  lane_total m c 2 (fun r q => sqd (m ((c : Thread nD τ).loc main_arg0) (ix3 r q 1))
    (m ((c : Thread nD τ).loc main_arg1) (ix3 r q 1))) (addend_x m c)

theorem total_y : z + ∑ x : Fin 16, lane m c x 3
    = z + ∑ r : Fin 128, ∑ q : Fin 65536, sqd (m ((c : Thread nD τ).loc main_arg0) (ix3 r q 2))
        (m ((c : Thread nD τ).loc main_arg1) (ix3 r q 2)) :=
  lane_total m c 3 (fun r q => sqd (m ((c : Thread nD τ).loc main_arg0) (ix3 r q 2))
    (m ((c : Thread nD τ).loc main_arg1) (ix3 r q 2))) (addend_y m c)

theorem total_wh : z + ∑ x : Fin 16, lane m c x 4
    = z + ∑ r : Fin 128, ∑ q : Fin 65536, sqd (Ideal.sqrt (m ((c : Thread nD τ).loc main_arg0) (ix3 r q 3)))
        (Ideal.sqrt (m ((c : Thread nD τ).loc main_arg1) (ix3 r q 3))) :=
  lane_total m c 4 (fun r q => sqd (Ideal.sqrt (m ((c : Thread nD τ).loc main_arg0) (ix3 r q 3)))
    (Ideal.sqrt (m ((c : Thread nD τ).loc main_arg1) (ix3 r q 3)))) (addend_wh m c)

end Cert.KernelIdeal.Sums
-- ==== Proof.KernelResult.lean ====
/-
  The kernel's result: the loss of the five lane totals.

  After the region the host sums the [16, 8, 128] accumulator array over its sixteen groups, reads lanes 0..4 of row 0
  of that sum as five scalars and combines them into the loss. The sum over the groups at (0, k) is 0 plus the sum
  over x of entry (x, 0, k); so the result buffer holds the loss of the five totals 0 + sum over x of lane k of group x.
-/
import proofs.«106053_j86354612453429_1_alg».proof.Proof.KernelSums
import Idealize.ShloMosaic.Lib.StableHlo.Run

set_option maxRecDepth 16384

noncomputable section

open scoped BigOperators

namespace Cert.KernelIdeal.Result

open Idealize.ShloMosaic Idealize.ShloMosaic.TcCoe Idealize.ShloMosaic.Tactic Idealize.SL.Sem Cert.KernelIdeal Cert.KernelIdeal.Gen
open Idealize.ShloMosaic.Pipeline (Dat)
open Idealize.ShloMosaic.ValueIdx Cert.Loss Idealize.ShloMosaic.StableHlo Cert.KernelIdeal.Sums

/-- Entry (0, k) of an [8, 128] array, cut out as a [1, 1] slice and reshaped to a scalar, at the scalar's one index. -/
theorem scalarRead {α : Type} (k : ℕ) (hk : k < 128) (R : (⟨2, ![8, 128]⟩ : Shape).Idx → α)
    (hs : (⟨2, ![8, 128]⟩ : Shape).Slices ![0, k] ⟨2, ![1, 1]⟩) (hc : (⟨2, ![1, 1]⟩ : Shape).ShapeCasts ⟨0, ![]⟩)
    (i : (⟨0, ![]⟩ : Shape).Idx) :
    shapeCast ⟨0, ![]⟩ (extractStridedSlice ⟨2, ![1, 1]⟩ ![0, k] R hs) hc i = R (ix2 (0 : Fin 8) ⟨k, hk⟩) := by
  refine (shapeCast_apply _ hc i (ix2 (0 : Fin 1) (0 : Fin 1)) ?_).trans ?_
  · rw [Shape.rowMajor_val_two]
    have h1 : (⟨0, ![]⟩ : Shape).numel = 1 := rfl
    have h : ((⟨0, ![]⟩ : Shape).rowMajor i).val < 1 := lt_of_lt_of_eq ((⟨0, ![]⟩ : Shape).rowMajor i).isLt h1
    show (0 : ℕ) * 1 + 0 = _
    omega
  · exact extractStridedSlice_apply _ R hs _ _ (fun d => match d with
      | ⟨0, _⟩ => by show (0 : ℕ) = 0 + 0; omega
      | ⟨1, _⟩ => by show k = k + 0; omega)

/-- The host's sum over the sixteen groups, at row 0 and lane k. -/
theorem reduce_lane (W : (⟨S16x8x128, .f32⟩ : BufTy).Contents (Elt Ideal)) (k : Fin 128) :
    Host.reduceAdd (F := Ideal) W (constant (F := Ideal) S_ .f32 0x00000000#32) reducesTo_S16x8x128_S8x128_d0 h_S_ (ix2 (0 : Fin 8) k)
      = z + ∑ x : Fin 16, W (ix3 x (0 : Fin 8) k) := by
  simp only [Host.reduceAdd, Ideal.hostReduceAdd_def]
  refine (Ideal.hostReduceAdd_single reducesTo_S16x8x128_S8x128_d0 (by decide) W _ (ix2 (0 : Fin 8) k)).trans ?_
  refine congrArg₂ (· + ·) rfl (Finset.sum_congr rfl fun x _ => congrArg W (funext fun d => ?_))
  match d with
  | ⟨0, _⟩ => rfl
  | ⟨1, _⟩ => rfl
  | ⟨2, _⟩ => rfl

variable (m : (ℓ : Loc nD τ sig) → Buf (Elt Ideal) ℓ) (c : Dev nD)

/-- What the host's lines find in the accumulator's array is what the region left there. -/
theorem withArrays_acc :
    Pipeline.withArrays (cfgs 0).spec c (V0 m c) (fun w => (dats m 0 c).arrAt w (cfgs 0).N) (Proc.devRef .tc main_v0)
      = (dats m 0 c).arrAt 2 cfg0.N :=
  Pipeline.withArrays_arr spec0 launch0.win.arr_inj c _ _ 2

/-- The total of lane k, as the host's sum over the groups reads it. -/
theorem reduce_total (k : Fin 8) :
    Host.reduceAdd (F := Ideal) ((dats m 0 c).arrAt 2 cfg0.N) (constant (F := Ideal) S_ .f32 0x00000000#32)
        reducesTo_S16x8x128_S8x128_d0 h_S_ (ix2 (0 : Fin 8) (⟨k.val, by have := k.isLt; omega⟩ : Fin 128))
      = z + ∑ x : Fin 16, lane m c x k :=
  reduce_lane _ _

set_option maxHeartbeats 4000000 in
/-- The result buffer after the run. -/
theorem result_eq :
    (Pipeline.afterTail₀ cfgs (dats m) 0 (V0 m) [hostOps1] c main_v24 : (⟨S_, .f32⟩ : BufTy).Contents (Elt Ideal))
      = fun _ => loss (z + ∑ x : Fin 16, lane m c x 0) (z + ∑ x : Fin 16, lane m c x 1) (z + ∑ x : Fin 16, lane m c x 2)
          (z + ∑ x : Fin 16, lane m c x 3) (z + ∑ x : Fin 16, lane m c x 4) := by
  unfold Pipeline.afterTail₀
  show StableHlo.after hostOps1 _ (Proc.devRef .tc main_v24) = _
  after_results_simp
  rw [withArrays_acc m c]
  generalize hR : Host.reduceAdd (F := Ideal) ((dats m 0 c).arrAt 2 cfg0.N) (constant (F := Ideal) S_ .f32 0x00000000#32)
    reducesTo_S16x8x128_S8x128_d0 h_S_ = R
  have e0 : R (ix2 (0 : Fin 8) (⟨0, by decide⟩ : Fin 128)) = z + ∑ x : Fin 16, lane m c x 0 := by rw [← hR]; exact reduce_total m c 0
  have e1 : R (ix2 (0 : Fin 8) (⟨1, by decide⟩ : Fin 128)) = z + ∑ x : Fin 16, lane m c x 1 := by rw [← hR]; exact reduce_total m c 1
  have e2 : R (ix2 (0 : Fin 8) (⟨2, by decide⟩ : Fin 128)) = z + ∑ x : Fin 16, lane m c x 2 := by rw [← hR]; exact reduce_total m c 2
  have e3 : R (ix2 (0 : Fin 8) (⟨3, by decide⟩ : Fin 128)) = z + ∑ x : Fin 16, lane m c x 3 := by rw [← hR]; exact reduce_total m c 3
  have e4 : R (ix2 (0 : Fin 8) (⟨4, by decide⟩ : Fin 128)) = z + ∑ x : Fin 16, lane m c x 4 := by rw [← hR]; exact reduce_total m c 4
  funext i
  rw [← e0, ← e1, ← e2, ← e3, ← e4, ← scalarRead 0 (by decide) R slices_S8x128_S1x1_0_0 shapeCasts_S1x1_S_ i,
    ← scalarRead 1 (by decide) R slices_S8x128_S1x1_0_1 shapeCasts_S1x1_S_ i,
    ← scalarRead 2 (by decide) R slices_S8x128_S1x1_0_2 shapeCasts_S1x1_S_ i,
    ← scalarRead 3 (by decide) R slices_S8x128_S1x1_0_3 shapeCasts_S1x1_S_ i,
    ← scalarRead 4 (by decide) R slices_S8x128_S1x1_0_4 shapeCasts_S1x1_S_ i]
  rfl

/-- So the kernel's result is the loss of the two argument arrays. -/
theorem kernel_value :
    (Pipeline.afterTail₀ cfgs (dats m) 0 (V0 m) [hostOps1] c main_v24 : (⟨S_, .f32⟩ : BufTy).Contents (Elt Ideal))
      = fun _ => value (m ((c : Thread nD τ).loc main_arg0)) (m ((c : Thread nD τ).loc main_arg1)) := by
  rw [result_eq m c, total_pres m c, total_class m c, total_x m c, total_y m c, total_wh m c]
  rfl

/-- The frame run, read: the result buffer at the loss of the argument arrays, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v24)
        = ((fun _ => value (m ((c : Thread nD τ).loc main_arg0)) (m ((c : Thread nD τ).loc main_arg1))) :
            (⟨S_, .f32⟩ : BufTy).Contents (Elt Ideal))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v24 (Pipeline.mem_restRefs_of main_v24 rfl (fun w => by fin_cases w <;> decide))).trans (kernel_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result
-- ==== Proof.RefTerms.lean ====
/-
  The reference, position by position.

  The reference slices one channel at a time out of the whole [128, 65536, ·] arrays, computes each of the five terms
  as a whole-array vector and sums it over every axis. Read at a position (r, q) (and a class k) those vectors are
  the scalar terms of the loss of the channels at that position; its five sums are 0 plus the sum of those terms over
  all positions; and its result is the loss of the five sums.
-/
import proofs.«106053_j86354612453429_1_alg».proof.Proof.Gen.ReferenceIdeal.Read
import proofs.«106053_j86354612453429_1_alg».proof.Proof.LossTerms

noncomputable section

open scoped BigOperators

namespace Cert.ReferenceIdeal.RefTerms

open Idealize.ShloMosaic Idealize.ShloMosaic.ValueIdx Cert.ReferenceIdeal Cert.ReferenceIdeal.Read Cert.Loss

/-- Channel ch of an array [128, 65536, C], cut out as a column and reshaped to [128, 65536], at position (r, q). -/
theorem chanR {C : ℕ} {α : Type} (ch : ℕ) (hch : ch < C) (x : (⟨3, ![128, 65536, C]⟩ : Shape).Idx → α)
    (hs : (⟨3, ![128, 65536, C]⟩ : Shape).Slices ![0, 0, ch] ⟨3, ![128, 65536, 1]⟩)
    (hc : (⟨3, ![128, 65536, 1]⟩ : Shape).ShapeCasts ⟨2, ![128, 65536]⟩) (r : Fin 128) (q : Fin 65536) :
    shapeCast ⟨2, ![128, 65536]⟩ (extractStridedSlice ⟨3, ![128, 65536, 1]⟩ ![0, 0, ch] x hs) hc (ix2 r q)
      = x (ix3 r q ⟨ch, hch⟩) := by
  refine (shapeCast_apply _ hc (ix2 r q) (ix3 r q (0 : Fin 1)) ?_).trans ?_
  · rw [Shape.rowMajor_val_three, Shape.rowMajor_val_two]
    show (r.val * 65536 + q.val) * 1 + 0 = r.val * 65536 + q.val
    omega
  · exact extractStridedSlice_apply _ x hs _ _ (fun d => match d with
      | ⟨0, _⟩ => by show r.val = 0 + r.val; omega
      | ⟨1, _⟩ => by show q.val = 0 + q.val; omega
      | ⟨2, _⟩ => by show ch = ch + 0; omega)

variable (x0 : (⟨S128x65536x7, .f32⟩ : BufTy).Contents (Elt Ideal)) (x1 : (⟨S128x65536x5, .f32⟩ : BufTy).Contents (Elt Ideal))
variable (r : Fin 128) (q : Fin 65536)

/-! ## The nine channel reads -/

theorem out0_at : val_main_v1 (F := Ideal) x0 (ix2 r q) = x0 (ix3 r q 0) := by
  unfold val_main_v1 val_main_v0; exact chanR 0 (by decide) x0 _ _ r q
theorem tgt0_at : val_main_v3 (F := Ideal) x1 (ix2 r q) = x1 (ix3 r q 0) := by
  unfold val_main_v3 val_main_v2; exact chanR 0 (by decide) x1 _ _ r q
theorem tgt4_at : val_main_v18 (F := Ideal) x1 (ix2 r q) = x1 (ix3 r q 4) := by
  unfold val_main_v18 val_main_v17; exact chanR 4 (by decide) x1 _ _ r q
theorem out1_at : val_main_v38 (F := Ideal) x0 (ix2 r q) = x0 (ix3 r q 1) := by
  unfold val_main_v38 val_main_v37; exact chanR 1 (by decide) x0 _ _ r q
theorem tgt1_at : val_main_v40 (F := Ideal) x1 (ix2 r q) = x1 (ix3 r q 1) := by
  unfold val_main_v40 val_main_v39; exact chanR 1 (by decide) x1 _ _ r q
theorem out2_at : val_main_v46 (F := Ideal) x0 (ix2 r q) = x0 (ix3 r q 2) := by
  unfold val_main_v46 val_main_v45; exact chanR 2 (by decide) x0 _ _ r q
theorem tgt2_at : val_main_v48 (F := Ideal) x1 (ix2 r q) = x1 (ix3 r q 2) := by
  unfold val_main_v48 val_main_v47; exact chanR 2 (by decide) x1 _ _ r q
theorem out3_at : val_main_v54 (F := Ideal) x0 (ix2 r q) = x0 (ix3 r q 3) := by
  unfold val_main_v54 val_main_v53; exact chanR 3 (by decide) x0 _ _ r q
theorem tgt3_at : val_main_v57 (F := Ideal) x1 (ix2 r q) = x1 (ix3 r q 3) := by
  unfold val_main_v57 val_main_v56; exact chanR 3 (by decide) x1 _ _ r q

/-! ## The class term's three reads at (r, q, k) -/

variable (k : Fin 3)

/-- Channels 4, 5, 6 of `output`. -/
theorem outc_at : val_main_v24 (F := Ideal) x0 (ix3 r q k) = x0 (ix3 r q ⟨4 + k.val, by have := k.isLt; omega⟩) := by
  rw [val_main_v24_apply]
  exact congrArg x0 (funext fun d => match d with
    | ⟨0, _⟩ => rfl
    | ⟨1, _⟩ => rfl
    | ⟨2, _⟩ => rfl)

/-- The presence target repeated over the classes. -/
theorem tgtc_at : val_main_v22 (F := Ideal) x1 (ix3 r q k) = x1 (ix3 r q 0) := by
  rw [val_main_v22_apply, val_main_v21_apply, ← tgt0_at x1 r q]
  exact congrArg (val_main_v3 (F := Ideal) x1) (funext fun d => match d with
    | ⟨0, _⟩ => rfl
    | ⟨1, _⟩ => rfl)

/-- The one-hot factor. -/
theorem hot_at : val_main_v20 (F := Ideal) x1 (ix3 r q k) = hot (x1 (ix3 r q 4)) k.val := by
  rw [val_main_v20_apply, val_main_call2_v4_apply, val_main_call2_v2_apply, val_main_call2_v0_apply,
    val_main_call2_v3_apply, val_main_call2_v1_apply, ← tgt4_at x1 r q]
  have e : idx_main_call2_v0 (idx_main_call2_v2 (ix3 r q k)) = ix2 r q := funext fun d => match d with
    | ⟨0, _⟩ => rfl
    | ⟨1, _⟩ => rfl
  rw [e, val_main_v19_apply]
  rfl

/-! ## The five vectors at a position -/

theorem pres_at : val_main_v14 (F := Ideal) x0 x1 (ix2 r q) = bce (x0 (ix3 r q 0)) (x1 (ix3 r q 0)) := by
  rw [← out0_at x0 r q, ← tgt0_at x1 r q]
  exact bce_host _ _

theorem class_at : val_main_v35 (F := Ideal) x0 x1 (ix3 r q k)
    = bce (x0 (ix3 r q ⟨4 + k.val, by have := k.isLt; omega⟩)) (hot (x1 (ix3 r q 4)) k.val * x1 (ix3 r q 0)) := by
  rw [← outc_at x0 r q k, ← tgtc_at x1 r q k, ← hot_at x1 r q k]
  exact bce_host _ _

theorem x_at : val_main_v42 (F := Ideal) x0 x1 (ix2 r q) = sqd (x0 (ix3 r q 1)) (x1 (ix3 r q 1)) := by
  rw [← out1_at x0 r q, ← tgt1_at x1 r q]; rfl

theorem y_at : val_main_v50 (F := Ideal) x0 x1 (ix2 r q) = sqd (x0 (ix3 r q 2)) (x1 (ix3 r q 2)) := by
  rw [← out2_at x0 r q, ← tgt2_at x1 r q]; rfl

theorem wh_at : val_main_v60 (F := Ideal) x0 x1 (ix2 r q)
    = sqd (Ideal.sqrt (x0 (ix3 r q 3))) (Ideal.sqrt (x1 (ix3 r q 3))) := by
  rw [← out3_at x0 r q, ← tgt3_at x1 r q]; rfl

/-! ## The five sums, and the result -/

variable (i : S_.Idx)

theorem sum_pres : val_main_v15 (F := Ideal) x0 x1 i
    = z + ∑ r : Fin 128, ∑ q : Fin 65536, bce (x0 (ix3 r q 0)) (x1 (ix3 r q 0)) := by
  refine (val_main_v15_apply x0 x1 i).trans (congrArg (z + ·) ?_)
  refine (sum_idx2 _).trans ?_
  exact Finset.sum_congr rfl fun r _ => Finset.sum_congr rfl fun q _ => pres_at x0 x1 r q

theorem sum_class : val_main_v36 (F := Ideal) x0 x1 i
    = z + ∑ r : Fin 128, ∑ q : Fin 65536, ∑ k : Fin 3,
        bce (x0 (ix3 r q ⟨4 + k.val, by have := k.isLt; omega⟩)) (hot (x1 (ix3 r q 4)) k.val * x1 (ix3 r q 0)) := by
  refine (val_main_v36_apply x0 x1 i).trans (congrArg (z + ·) ?_)
  refine (sum_idx3 _).trans ?_
  exact Finset.sum_congr rfl fun r _ => Finset.sum_congr rfl fun q _ => Finset.sum_congr rfl fun k _ =>
    class_at x0 x1 r q k

theorem sum_x : val_main_v43 (F := Ideal) x0 x1 i
    = z + ∑ r : Fin 128, ∑ q : Fin 65536, sqd (x0 (ix3 r q 1)) (x1 (ix3 r q 1)) := by
  refine (val_main_v43_apply x0 x1 i).trans (congrArg (z + ·) ?_)
  refine (sum_idx2 _).trans ?_
  exact Finset.sum_congr rfl fun r _ => Finset.sum_congr rfl fun q _ => x_at x0 x1 r q

theorem sum_y : val_main_v51 (F := Ideal) x0 x1 i
    = z + ∑ r : Fin 128, ∑ q : Fin 65536, sqd (x0 (ix3 r q 2)) (x1 (ix3 r q 2)) := by
  refine (val_main_v51_apply x0 x1 i).trans (congrArg (z + ·) ?_)
  refine (sum_idx2 _).trans ?_
  exact Finset.sum_congr rfl fun r _ => Finset.sum_congr rfl fun q _ => y_at x0 x1 r q

theorem sum_wh : val_main_v61 (F := Ideal) x0 x1 i
    = z + ∑ r : Fin 128, ∑ q : Fin 65536, sqd (Ideal.sqrt (x0 (ix3 r q 3))) (Ideal.sqrt (x1 (ix3 r q 3))) := by
  refine (val_main_v61_apply x0 x1 i).trans (congrArg (z + ·) ?_)
  refine (sum_idx2 _).trans ?_
  exact Finset.sum_congr rfl fun r _ => Finset.sum_congr rfl fun q _ => wh_at x0 x1 r q

/-- The reference's result is the loss of its five sums. -/
theorem result_eq : val_main_v71 (F := Ideal) x0 x1 i
    = loss (val_main_v15 (F := Ideal) x0 x1 i) (val_main_v36 (F := Ideal) x0 x1 i) (val_main_v43 (F := Ideal) x0 x1 i)
        (val_main_v51 (F := Ideal) x0 x1 i) (val_main_v61 (F := Ideal) x0 x1 i) := rfl

/-- So the reference's result is the loss of the two arrays. -/
theorem ref_value : val_main_v71 (F := Ideal) x0 x1 i = value x0 x1 := by
  rw [result_eq, sum_pres, sum_class, sum_x, sum_y, sum_wh]
  rfl

end Cert.ReferenceIdeal.RefTerms
-- ==== Proof.lean ====
/-
  The localization loss: binary cross-entropy of the presence and class probabilities plus squared errors of the box,
  summed over 128 x 65536 positions.

  The kernel walks the positions in 16 x 4 blocks of 8 x 16384. At each block it computes the block's five partial
  sums (presence cross-entropy, class cross-entropy, squared x error, squared y error, squared error of the square
  roots of the size) and adds them into lanes 0..4 of an accumulator kept over the four blocks of a block row; the
  host then adds the sixteen accumulators, divides four of the totals by the number of positions 2^23 and combines
  them. The reference computes each term over the whole arrays, sums it, and combines the sums in the same way.

  Over the extended reals the two are one function of the arguments. Position by position both compute the same
  scalar terms: a negation is written 0 - x on one side and -x on the other, the clamp max(., -100) has its operands
  exchanged, and the one-hot factor is a compare's bit converted as a signed 32-bit or an unsigned 1-bit integer.
  The five totals agree because a sum over the 128 x 65536 positions is the sum over the 16 x 4 blocks of the sums
  over each block's 8 x 16384 positions, an identity of finite sums in a commutative monoid that asks nothing of the
  summands; the precondition is not used. The combination of the five totals is the same expression on both sides.
  The idealized kernel is the kernel's own text read over the extended reals, so the preserves claim is trivial; the
  three frames are the generated ones (the reference's is its generated run with the result dropped).
-/
import proofs.«106053_j86354612453429_1_alg».proof.Defs
import proofs.«106053_j86354612453429_1_alg».proof.Proof.Gen.Kernel
import proofs.«106053_j86354612453429_1_alg».proof.Proof.Gen.Kernel.Frame
import proofs.«106053_j86354612453429_1_alg».proof.Proof.Gen.KernelIdeal
import proofs.«106053_j86354612453429_1_alg».proof.Proof.Gen.KernelIdeal.Frame
import proofs.«106053_j86354612453429_1_alg».proof.Proof.Gen.ReferenceIdeal
import proofs.«106053_j86354612453429_1_alg».proof.Proof.Gen.ReferenceIdeal.Run
import proofs.«106053_j86354612453429_1_alg».proof.Proof.Gen.Pre_finite_inputs
import proofs.«106053_j86354612453429_1_alg».proof.Proof.KernelResult
import proofs.«106053_j86354612453429_1_alg».proof.Proof.RefTerms
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the loss of the argument arrays in their result buffer. -/
theorem algebraic : Cert.algebraic_KernelIdeal_ReferenceIdeal := by
  intro m ρ m' ρ' _ hagree
  refine ⟨fun c => ((fun _ => Cert.Loss.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))) :
      (⟨Cert.KernelIdeal.S_, .f32⟩ : BufTy).Contents (Elt Ideal)), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq, (hagree c).1, (hagree c).2]
  exact funext fun i => Cert.ReferenceIdeal.RefTerms.ref_value _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
